-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x64 .f32) (main_arg11 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S5000x128 : Shape := ⟨2, ![5000, 128]⟩
abbrev S850000x128 : Shape := ⟨2, ![850000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 133
  | .vmem => 30
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x64, .f32⟩
  | 11 => ⟨S64, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .f32⟩
  | 52 => ⟨S128, .f32⟩
  | 53 => ⟨S1x128, .f32⟩
  | 54 => ⟨S50000x128, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x128, .f32⟩
  | 64 => ⟨S850000x1, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S_, .f32⟩
  | 78 => ⟨S128, .f32⟩
  | 79 => ⟨S1x128, .f32⟩
  | 80 => ⟨S50000x128, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000x128, .f32⟩
  | 90 => ⟨S850000x1, .f32⟩
  | 91 => ⟨S850000x128, .f32⟩
  | 92 => ⟨S850000x128, .f32⟩
  | 93 => ⟨S_, .f32⟩
  | 94 => ⟨S50000x128, .f32⟩
  | 95 => ⟨S850000x1, .i32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S_, .f32⟩
  | 104 => ⟨S128, .f32⟩
  | 105 => ⟨S1x128, .f32⟩
  | 106 => ⟨S50000x128, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x128, .f32⟩
  | 116 => ⟨S850000x1, .f32⟩
  | 117 => ⟨S850000x128, .f32⟩
  | 118 => ⟨S850000x128, .f32⟩
  | 119 => ⟨S_, .f32⟩
  | 120 => ⟨S50000x128, .f32⟩
  | 121 => ⟨S850000x1, .i32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S1x64, .f32⟩
  | 4 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call1_cst : Ref sig .tc := ⟨.hbm, 74, rfl⟩
abbrev main_call1_v0 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call2_cst : Ref sig .tc := ⟨.hbm, 100, rfl⟩
abbrev main_call2_v0 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_15 : Ref sig .tc := ⟨.hbm, 107, rfl⟩
abbrev main_v74 : Ref sig .tc := ⟨.hbm, 108, rfl⟩
abbrev main_v75 : Ref sig .tc := ⟨.hbm, 109, rfl⟩
abbrev main_c_16 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_cst : Ref sig .tc := ⟨.hbm, 126, rfl⟩
abbrev main_call3_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v90) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v92) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v92) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v93) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x64, .f32⟩
  | 11 => ⟨S64, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x128, .f32⟩
  | 84 => ⟨S850000x1, .f32⟩
  | 85 => ⟨S850000x128, .f32⟩
  | 86 => ⟨S850000x128, .f32⟩
  | 87 => ⟨S_, .f32⟩
  | 88 => ⟨S50000x128, .f32⟩
  | 89 => ⟨S850000x1, .i32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x128, .f32⟩
  | 107 => ⟨S850000x1, .f32⟩
  | 108 => ⟨S850000x128, .f32⟩
  | 109 => ⟨S850000x128, .f32⟩
  | 110 => ⟨S_, .f32⟩
  | 111 => ⟨S50000x128, .f32⟩
  | 112 => ⟨S850000x1, .i32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x64, .f32⟩
  | _ => ⟨S50000x128, .f32⟩

abbrev hbmTy0_1 (i : Nat) : BufTy := match i % 128 with
  | 0 => ⟨S1x64, .f32⟩
  | 1 => ⟨S50000x64, .f32⟩
  | 2 => ⟨S50000x64, .f32⟩
  | 3 => ⟨S50000x64, .f32⟩
  | 4 => ⟨S50000x64, .f32⟩
  | 5 => ⟨S_, .f32⟩
  | 6 => ⟨S50000x64, .f32⟩
  | 7 => ⟨S50000x64, .f32⟩
  | 8 => ⟨S_, .f32⟩
  | 9 => ⟨S50000x64, .f32⟩
  | 10 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call1_cst : Ref sig .tc := ⟨.hbm, 71, rfl⟩
abbrev main_call1_v0 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call2_cst : Ref sig .tc := ⟨.hbm, 94, rfl⟩
abbrev main_call2_v0 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call3_cst : Ref sig .tc := ⟨.hbm, 117, rfl⟩
abbrev main_call3_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_call4_cst : Ref sig .tc := ⟨.hbm, 124, rfl⟩
abbrev main_call4_v0 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_15 : Ref sig .tc := ⟨.hbm, 133, rfl⟩
abbrev main_v96 : Ref sig .tc := ⟨.hbm, 134, rfl⟩
abbrev main_v97 : Ref sig .tc := ⟨.hbm, 135, rfl⟩
abbrev main_cst_16 : Ref sig .tc := ⟨.hbm, 136, rfl⟩
abbrev main_v98 : Ref sig .tc := ⟨.hbm, 137, rfl⟩
abbrev main_v99 : Ref sig .tc := ⟨.hbm, 138, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  THE KERNEL PROGRAM'S RUN WITH ITS RESULT NAMED.

  The program is five pallas calls among stretches of host operations.  Every weakly fair execution terminates, faults
  nowhere, leaves the twelve argument arrays as launched, and leaves in the result buffer what the fold of the eighteen
  segments over the launch memory leaves there: `W18 m ρ c` read at the result buffer.  The fold itself (a stretch of host
  operations applies them in order; a call replaces its output array by the blocks its grid points wrote back) is read
  stage by stage in the modules that import this one.
-/
import proofs.«178937_j87797721465076_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the segments' fold read at it, the arguments as launched. -/
theorem run_named : θ_run defs (onTc (τ := τ) (main (F := F))) ⟨m, fun _ => 0, ρ⟩ (fun r => ∀ c : Dev nD,
      r.2.mem ((c.tc : Thread nD τ).loc main_v94) = W18 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v94 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c)⟩)

end Cert.KernelIdeal.Named

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«178937_j87797721465076_1_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«178937_j87797721465076_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«178937_j87797721465076_1_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibNormSum.lean ====
/-
  Extended-real algebra for a normalised neighbour sum. A graph convolution scales each neighbour's contribution by
  the factors `1 / sqrt (degree)` of both end points. One way of computing it multiplies every summand by both
  factors and then sums; another sums first and multiplies the total by the destination's factor afterwards. On the
  extended reals multiplication does not distribute over addition in general (`⊤ + ⊥ = ⊥`), but it does for a
  multiplier that is NON-NEGATIVE and FINITE, whatever the summands are (they may be `±∞`). The factor
  `1 / sqrt (1 + number of neighbours)` is such a multiplier. No program appears in this module.
-/
import Idealize.ShloMosaic.PureOps.Ideal.Laws

noncomputable section

namespace Cert.NormSum

open Idealize.ShloMosaic
open scoped BigOperators

/-- A non-negative finite extended real `cv` distributes over any finite sum of extended reals, infinite summands
    included: `cv * Σ f = Σ cv * f`. Induction on the index set; the step is distributivity of such a multiplier
    over one addition. -/
theorem mul_sum_of_nonneg_ne_top {ι : Type*} (S : Finset ι) (f : ι → EReal) (cv : EReal) (h0 : 0 ≤ cv)
    (ht : cv ≠ ⊤) : cv * ∑ e ∈ S, f e = ∑ e ∈ S, cv * f e := by
  classical
  induction S using Finset.induction_on with
  | empty => simp
  | insert a s ha ih =>
    rw [Finset.sum_insert ha, Finset.sum_insert ha, EReal.left_distrib_of_nonneg_of_ne_top h0 ht, ih]

/-- Pulling the destination's factor out of a normalised sum. With every destination factor `dd e` equal to the one
    non-negative finite `cv`: `cv * ((0 + Σ a·ds) + hp·cv) = (0 + Σ a·(ds·dd)) + hp·(cv·cv)`. The left side
    distributes `cv` over the outer sum and then over the inner one; each term then agrees by commutativity and
    associativity of the extended reals' multiplication. -/
theorem norm_pull {ι : Type*} (S : Finset ι) (a ds dd : ι → EReal) (hp cv : EReal) (h0 : 0 ≤ cv) (ht : cv ≠ ⊤)
    (hdd : ∀ e ∈ S, dd e = cv) :
    cv * ((0 + ∑ e ∈ S, a e * ds e) + hp * cv) = (0 + ∑ e ∈ S, a e * (ds e * dd e)) + hp * (cv * cv) := by
  rw [EReal.left_distrib_of_nonneg_of_ne_top h0 ht, zero_add, zero_add,
    mul_sum_of_nonneg_ne_top S (fun e => a e * ds e) cv h0 ht]
  congr 1
  · refine Finset.sum_congr rfl fun e he => ?_
    rw [hdd e he, mul_comm cv (a e * ds e), mul_assoc]
  · exact mul_left_comm cv hp cv

/-- The single-precision pattern `0x3F800000` (sign 0, biased exponent 127, fraction 0) denotes the extended real
    one: `2 ^ 23 * 2 ^ (127 - 127 - 23) = 1`. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(sqrt r)⁻¹`: neither of its corners (a negative
    argument, a zero argument) applies. -/
theorem rsqrt_coe_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A sum of ones over a finite set, plus one, is the real number `card S + 1`. -/
theorem count_add_one {ι : Type*} (S : Finset ι) :
    (0 + ∑ _e ∈ S, (1 : EReal)) + 1 = (((S.card : ℝ) + 1 : ℝ) : EReal) := by
  rw [zero_add, Finset.sum_const, EReal.nsmul_eq_mul, mul_one, EReal.coe_add, EReal.coe_natCast, EReal.coe_one]

/-- The normalising factor `1 / sqrt (1 + number of neighbours)` is a non-negative finite extended real: its
    argument is the positive real `card S + 1`, where the reciprocal square root is the real `(sqrt _)⁻¹ ≥ 0`. -/
theorem rsqrt_count_nonneg_ne_top {ι : Type*} (S : Finset ι) :
    0 ≤ Ideal.rsqrt ((0 + ∑ _e ∈ S, (1 : EReal)) + 1) ∧ Ideal.rsqrt ((0 + ∑ _e ∈ S, (1 : EReal)) + 1) ≠ ⊤ := by
  have hpos : (0 : ℝ) < (S.card : ℝ) + 1 := by positivity
  rw [count_add_one, rsqrt_coe_pos _ hpos]
  exact ⟨EReal.coe_nonneg.mpr (inv_nonneg.mpr (Real.sqrt_nonneg _)), EReal.coe_ne_top _⟩

end Cert.NormSum

end
-- ==== Proof.LibSiluMask.lean ====
/-
  THE ACTIVATION `v · σ(v)` IN ITS TWO SPELLINGS, AND A SIGN MASK IN ITS TWO SPELLINGS, at the ideal values.

  `σ(v) = 1 / (1 + e^(-v))` is the logistic function; `v ↦ v · σ(v)` is the activation often called silu or swish.  Two
  spellings of it occur in printed programs and both are read here at an index where the operand's value is known:
  • on the vector unit, `y · logistic y` entry by entry (`ksilu_at`);
  • on the host, `y · (1 / (1 + e^(-y)))` with the ones the single-precision word of 1.0 broadcast from a scalar, the
    quotient the host's division and the exponential the host's (`hsilu_at`).
  They agree on every extended real, the infinities included, because the library's logistic function is defined as that
  quotient (`silu1_quotient`).
  A mask on integer labels also has two spellings: the label compared, signed, with zero; or the label converted to a
  float and compared with `-1/2`.  An integer is either at least `0` or at most `-1`, so both give the same bit
  (`mask_bit`).  Also: a constant broadcast from a scalar read at an index (`splat_apply`) and a selection read at an index
  (`select_at`).  No program appears in this module; no sum is regrouped and nothing needs to be finite.
-/
import Idealize.ShloMosaic.PureOps.Ideal.Laws
import Idealize.ShloMosaic.Lib.ValueIdx
import Idealize.ShloMosaic.Lib.Pipeline.Value
import proofs.«178937_j87797721465076_1_alg».proof.Proof.LibNormSum

noncomputable section

namespace Cert.SiluMask

open Idealize.ShloMosaic Idealize.ShloMosaic.ValueIdx

/-! ## One number, one row -/

/-- The activation on one number: `v · σ(v)`. -/
def silu1 (v : EReal) : EReal := v * Ideal.logistic v

/-- The activation on every entry of a row. -/
def siluRow {N : ℕ} (x : Fin N → EReal) (j : Fin N) : EReal := silu1 (x j)

/-! ## The activation spelt as a quotient -/

/-- `x · (1 / (1 + e^(-x)))` with the host's division and exponential is `x · σ(x)`: the logistic function is that
    quotient by definition, on every extended real. -/
theorem silu1_quotient (v : EReal) :
    FloatOps.mulf (F := Ideal) (φ := .f32) v
        (FloatOps.hostDivf (1 : EReal) (FloatOps.addf (1 : EReal) (FloatOps.hostUnary .exp (FloatOps.hostNegf v))))
      = silu1 v := rfl

/-- A constant broadcast from a scalar reads the constant's value at every index. -/
theorem splat_apply {s : Shape} {φ : FTy} (w : BitVec φ.bits) (h : (⟨0, ![]⟩ : Shape).BroadcastsInDim s ![]) (i : s.Idx) :
    broadcastInDim s ![] h (constant (F := Ideal) ⟨0, ![]⟩ φ w) i = Ideal.ofBits φ w := by
  rw [broadcastInDim_apply _ h _ i ix0 (fun a => a.elim0)]
  rfl

/-- The host's spelling of the activation, read at an index where the operand's value is known. -/
theorem hsilu_at {s : Shape} (y : FVec Ideal s .f32) (h : (⟨0, ![]⟩ : Shape).BroadcastsInDim s ![]) (i : s.Idx)
    (v : EReal) (hy : y i = v) :
    mulf y (Host.divf (broadcastInDim s ![] h (constant (F := Ideal) ⟨0, ![]⟩ .f32 0x3F800000#32))
        (addf (broadcastInDim s ![] h (constant (F := Ideal) ⟨0, ![]⟩ .f32 0x3F800000#32)) (Host.exp (Host.negf y)))) i
      = silu1 v := by
  show FloatOps.mulf (F := Ideal) (φ := .f32) (y i)
      (FloatOps.hostDivf (broadcastInDim s ![] h (constant (F := Ideal) ⟨0, ![]⟩ .f32 0x3F800000#32) i)
        (FloatOps.addf (broadcastInDim s ![] h (constant (F := Ideal) ⟨0, ![]⟩ .f32 0x3F800000#32) i)
          (FloatOps.hostUnary .exp (FloatOps.hostNegf (y i))))) = _
  rw [splat_apply, Cert.NormSum.one_word, hy]
  exact silu1_quotient v

/-- The vector unit's spelling, `y · logistic y` entry by entry, read at an index where the operand's value is known. -/
theorem ksilu_at {s : Shape} (y : FVec Ideal s .f32) (i : s.Idx) (v : EReal) (hy : y i = v) :
    mulf y (logistic y) i = silu1 v := by
  show FloatOps.mulf (F := Ideal) (φ := .f32) (y i) (FloatOps.logistic (y i)) = _
  rw [hy]
  rfl

/-! ## A selection read at an index -/

/-- `select` at an index where its three operands' values are known. -/
theorem select_at {s : Shape} {α : Type} (c : IVec s 1) (a b : s.Idx → α) (i : s.Idx) (cv : BitVec 1) (av bv : α)
    (hc : c i = cv) (ha : a i = av) (hb : b i = bv) : select c a b i = Scalar.select cv av bv := by
  show Scalar.select (c i) (a i) (b i) = _
  rw [hc, ha, hb]

/-! ## The mask's two spellings -/

/-- The single-precision pattern `0xBF000000` (sign 1, biased exponent 126, fraction 0) denotes `-1/2`:
    `-(2 ^ 23) · 2 ^ (126 - 127 - 23)`. -/
theorem neg_half_word : Ideal.ofBits .f32 0xBF000000#32 = ((-(1 / 2) : ℝ) : EReal) := by
  simp [Ideal.ofBits, Ideal.ieee, -EReal.coe_mul]; norm_num

/-- An integer exceeds `-1/2` exactly when it is at least zero. -/
theorem int_gt_neg_half (n : ℤ) : ((-(1 / 2) : ℝ) : EReal) < ((n : ℝ) : EReal) ↔ 0 ≤ n := by
  rw [EReal.coe_lt_coe_iff]
  constructor
  · intro h
    by_contra hn
    have h1 : n ≤ -1 := by omega
    have h2 : (n : ℝ) ≤ -1 := by exact_mod_cast h1
    linarith
  · intro h
    have h2 : (0 : ℝ) ≤ (n : ℝ) := by exact_mod_cast h
    linarith

/-- The label converted to a float and compared with `-1/2` gives the same bit as the label compared, signed, with
    zero. -/
theorem mask_bit (s : BitVec 32) :
    Ideal.cmp .ogt (((s.toInt : ℝ)) : EReal) (Ideal.ofBits .f32 0xBF000000#32) = IntOp.cmpi .sge s 0#32 := by
  rw [neg_half_word]
  show BitVec.ofBool (decide (((-(1 / 2) : ℝ) : EReal) < ((s.toInt : ℝ) : EReal))) = BitVec.ofBool ((0#32).sle s)
  congr 1
  rw [BitVec.sle, decide_eq_decide]
  exact (int_gt_neg_half s.toInt).trans (by simp)

end Cert.SiluMask

end
-- ==== Proof.LibSigmoid.lean ====
/-
  THE SIGMOID IN ITS TWO SPELLINGS, at the ideal values.

  `σ(v) = 1 / (1 + e^(-v))`.  On the vector unit it is one operation applied entry by entry; on the host it is spelt out as
  the quotient, with the ones the single-precision word of 1.0 broadcast from a scalar, the host's negation, exponential
  and division.  The library's logistic function is that quotient by definition, so the two agree on every extended
  real, the infinities included.  Both are read here at an index where the operand's value is known.  No sum is regrouped
  and nothing needs to be finite.
-/
import proofs.«178937_j87797721465076_1_alg».proof.Proof.LibSiluMask

noncomputable section

namespace Cert.Sigmoid

open Idealize.ShloMosaic Idealize.ShloMosaic.ValueIdx

/-- The vector unit's spelling at an index. -/
theorem klogistic_at {s : Shape} (y : FVec Ideal s .f32) (i : s.Idx) (v : EReal) (hy : y i = v) :
    logistic y i = Ideal.logistic v := by
  show FloatOps.logistic (F := Ideal) (φ := .f32) (y i) = _
  rw [hy]
  rfl

/-- The host's spelling at an index. -/
theorem hlogistic_at {s : Shape} (y : FVec Ideal s .f32) (h h' : (⟨0, ![]⟩ : Shape).BroadcastsInDim s ![]) (i : s.Idx)
    (v : EReal) (hy : y i = v) :
    Host.divf (broadcastInDim s ![] h (constant (F := Ideal) ⟨0, ![]⟩ .f32 0x3F800000#32))
        (addf (broadcastInDim s ![] h' (constant (F := Ideal) ⟨0, ![]⟩ .f32 0x3F800000#32)) (Host.exp (Host.negf y))) i
      = Ideal.logistic v := by
  show FloatOps.hostDivf (F := Ideal) (φ := .f32) (broadcastInDim s ![] h (constant (F := Ideal) ⟨0, ![]⟩ .f32 0x3F800000#32) i)
        (FloatOps.addf (broadcastInDim s ![] h' (constant (F := Ideal) ⟨0, ![]⟩ .f32 0x3F800000#32) i)
          (FloatOps.hostUnary .exp (FloatOps.hostNegf (y i)))) = _
  rw [Cert.SiluMask.splat_apply, Cert.NormSum.one_word, hy]
  rfl

end Cert.Sigmoid

end
-- ==== Proof.DenseSpec.lean ====
/-
  THE DENSE LAYERS OF THE NETWORK AS WHOLE-ARRAY FUNCTIONS, at the ideal values.

  Every matrix stage of the network is a dense layer applied row by row: output row `p` is
  `j ↦ (∑ k, X (p, k) · W (k, j)) + v j`, where `v` is a bias laid out as one row `[1, N]`.  Three things are said of it here,
  for every row count `R` and every extent `K`, `N`:
  • locality: a block of rows of the layer is the layer of that block of rows (`layer_block`), so a layer computed block
    of rows by block of rows is the layer of the whole array;
  • with the bias row all zeros the layer is the plain matrix product (`layer_zero_row`): `s + 0 = s` on every extended
    real, the infinities included, so nothing needs to be finite;
  • followed by the rectifier or by the sigmoid it is the host's spelling of the same (`relu_layer`, `sigmoid_layer`):
    product, bias broadcast to a row and then over the rows, then `max(·, 0)`, or `1 / (1 + e^(-·))`.
  No sum is regrouped.
-/
import proofs.«178937_j87797721465076_1_alg».proof.Proof.LibRowBias
import proofs.«178937_j87797721465076_1_alg».proof.Proof.LibBlockDot
import proofs.«178937_j87797721465076_1_alg».proof.Proof.LibSigmoid

noncomputable section

open scoped BigOperators

namespace Cert.DenseSpec

open Idealize.ShloMosaic Idealize.ShloMosaic.ValueIdx Cert.DenseRow Cert.RowBias

/-- The sigmoid applied to every entry. -/
def sigArr {s : Shape} (y : s.Idx → EReal) : s.Idx → EReal := fun i => Ideal.logistic (y i)

/-- Rows `off, off + 1, …` of the layer of `X` are the layer of rows `off, off + 1, …` of `X`. -/
theorem layer_block {R R' K N : ℕ} (x : (⟨2, ![R, K]⟩ : Shape).Idx → EReal) (X : (⟨2, ![R', K]⟩ : Shape).Idx → EReal)
    (W : (⟨2, ![K, N]⟩ : Shape).Idx → EReal) (v : (⟨2, ![1, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (hx : ∀ (u : (⟨2, ![R, K]⟩ : Shape).Idx) (z : (⟨2, ![R', K]⟩ : Shape).Idx),
      (z 0).val = off + (u 0).val → (z 1).val = (u 1).val → x u = X z) :
    layerArr x W (unrow v) y = layerArr X W (unrow v) i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  exact layerArr_rows x X W (unrow v) p p' (fun k => hx (ix2 p k) (ix2 p' k) hi0 rfl) c'

/-- With an all-zero bias row the layer is the matrix product. -/
theorem layer_zero_row {R K N : ℕ} (prec : Option ContractPrecision)
    (X : FVec Ideal ⟨2, ![R, K]⟩ .f32) (W : FVec Ideal ⟨2, ![K, N]⟩ .f32)
    (h0 : (⟨0, ![]⟩ : Shape).BroadcastsInDim ⟨1, ![N]⟩ ![]) (hc : (⟨1, ![N]⟩ : Shape).ShapeCasts ⟨2, ![1, N]⟩) :
    layerArr X W (unrow (shapeCast ⟨2, ![1, N]⟩
        (broadcastInDim ⟨1, ![N]⟩ ![] h0 (constant (F := Ideal) ⟨0, ![]⟩ .f32 0x00000000#32)) hc))
      = Host.dotGeneral (DotDims.plain R K N) prec X W := by
  funext i
  obtain ⟨p, c, rfl⟩ : ∃ (p : Fin R) (c : Fin N), i = ix2 p c := ⟨i 0, i 1, eq_ix2 i⟩
  rw [layerArr_apply, Cert.BlockDot.hdot_apply, unrow_cast]
  unfold layer
  dsimp only
  rw [Cert.SiluMask.splat_apply, Ideal.ofBits_zero_f32, add_zero]

/-- The layer with the bias vector cast to a row, then the rectifier: the host's spelling. -/
theorem relu_layer {R K N : ℕ} (prec : Option ContractPrecision)
    (X : FVec Ideal ⟨2, ![R, K]⟩ .f32) (W : FVec Ideal ⟨2, ![K, N]⟩ .f32) (b : FVec Ideal ⟨1, ![N]⟩ .f32)
    (hc : (⟨1, ![N]⟩ : Shape).ShapeCasts ⟨2, ![1, N]⟩)
    (h1 : (⟨1, ![N]⟩ : Shape).BroadcastsInDim ⟨2, ![1, N]⟩ ![1]) (h2 : (⟨2, ![1, N]⟩ : Shape).BroadcastsInDim ⟨2, ![R, N]⟩ ![0, 1])
    (hz : (⟨0, ![]⟩ : Shape).BroadcastsInDim ⟨2, ![R, N]⟩ ![]) :
    actArr zf (layerArr X W (unrow (shapeCast ⟨2, ![1, N]⟩ b hc)))
      = maximumf (addf (Host.dotGeneral (DotDims.plain R K N) prec X W)
          (broadcastInDim ⟨2, ![R, N]⟩ ![0, 1] h2 (broadcastInDim ⟨2, ![1, N]⟩ ![1] h1 b)))
        (broadcastInDim ⟨2, ![R, N]⟩ ![] hz (constant (F := Ideal) ⟨0, ![]⟩ .f32 0x00000000#32)) := by
  rw [unrow_cast, Cert.PlainDot.hlayer, hact]

/-- The layer with the bias vector cast to a row, then the sigmoid: the host's spelling. -/
theorem sigmoid_layer {R K N : ℕ} (prec : Option ContractPrecision)
    (X : FVec Ideal ⟨2, ![R, K]⟩ .f32) (W : FVec Ideal ⟨2, ![K, N]⟩ .f32) (b : FVec Ideal ⟨1, ![N]⟩ .f32)
    (hc : (⟨1, ![N]⟩ : Shape).ShapeCasts ⟨2, ![1, N]⟩)
    (h1 : (⟨1, ![N]⟩ : Shape).BroadcastsInDim ⟨2, ![1, N]⟩ ![1]) (h2 : (⟨2, ![1, N]⟩ : Shape).BroadcastsInDim ⟨2, ![R, N]⟩ ![0, 1])
    (ho ho' : (⟨0, ![]⟩ : Shape).BroadcastsInDim ⟨2, ![R, N]⟩ ![]) :
    sigArr (layerArr X W (unrow (shapeCast ⟨2, ![1, N]⟩ b hc)))
      = Host.divf (broadcastInDim ⟨2, ![R, N]⟩ ![] ho (constant (F := Ideal) ⟨0, ![]⟩ .f32 0x3F800000#32))
          (addf (broadcastInDim ⟨2, ![R, N]⟩ ![] ho' (constant (F := Ideal) ⟨0, ![]⟩ .f32 0x3F800000#32))
            (Host.exp (Host.negf (addf (Host.dotGeneral (DotDims.plain R K N) prec X W)
              (broadcastInDim ⟨2, ![R, N]⟩ ![0, 1] h2 (broadcastInDim ⟨2, ![1, N]⟩ ![1] h1 b)))))) := by
  funext i
  rw [unrow_cast]
  exact (Cert.Sigmoid.hlogistic_at _ ho ho' i _ (congrFun (Cert.PlainDot.hlayer R K N prec X W b h1 h2) i)).symm

/-- The vector unit's sigmoid is the sigmoid entry by entry. -/
theorem klogistic {s : Shape} (y : FVec Ideal s .f32) : logistic y = sigArr y := rfl

end Cert.DenseSpec

end
-- ==== Proof.NetSpec.lean ====
/-
  THE NETWORK AS WHOLE-ARRAY FUNCTIONS, at the ideal values.

  Three graph-convolution layers and a two-layer decoder over 50000 nodes and 850000 edges (the 800000 given ones and one
  self loop per node).  The edge list gives the source and destination vectors `src`, `dst`; an index below zero is wrapped
  once by the node count (`wrap`); a node's degree is the number of edges that end in it, and the edge weight `norm` is the
  product of the reciprocal square roots of the degrees of its two ends (zero where the degree is not positive).  One
  convolution takes node features `H` that have already been multiplied by the layer's weights, gathers them along the
  sources, scales by the edge weight, sums them into the destinations, adds the bias and rectifies (`agg`).  The network is
  stated twice: with every matrix stage a dense layer with a one-row bias (`netK`: the bias row is all zeros in the three
  convolutions), and with every matrix stage the host's `dot_general`, the bias added after it (`netH`).  They are the same
  function (`netK_eq_netH`): a zero bias adds nothing to any extended real, and the rectifier and the sigmoid are spelt the
  same way on both sides up to how the constants are broadcast.  The gathers, the scatter-adds and the edge weights are
  the same terms on both sides and are never opened.
-/
import proofs.«178937_j87797721465076_1_alg».proof.KernelIdeal
import proofs.«178937_j87797721465076_1_alg».proof.Proof.Gen.KernelIdeal
import proofs.«178937_j87797721465076_1_alg».proof.Proof.DenseSpec

noncomputable section

namespace Cert.KernelIdeal.Net

open Idealize.ShloMosaic Cert.KernelIdeal Cert.DenseRow Cert.RowBias Cert.DenseSpec
open Cert.KernelIdeal.Facts₀ Cert.KernelIdeal.Facts

abbrev EdgeList := IVec S2x800000 32
abbrev EdgeVec := IVec S850000 32
abbrev EdgeW := FVec Ideal S850000 .f32
abbrev NodeVec := FVec Ideal S50000 .f32
abbrev Feat := FVec Ideal S50000x128 .f32
abbrev Out := FVec Ideal S50000x64 .f32
abbrev Wt := FVec Ideal S128x128 .f32
abbrev WtO := FVec Ideal S128x64 .f32
abbrev Bias := FVec Ideal S128 .f32
abbrev BiasO := FVec Ideal S64 .f32
abbrev Row := FVec Ideal S1x128 .f32
abbrev RowO := FVec Ideal S1x64 .f32

/-- The sources: row 0 of the edge list, then every node once. -/
def src (e : EdgeList) : EdgeVec :=
  concatenate S850000 0 [⟨S800000, shapeCast _ (extractStridedSlice S1x800000 ![0, 0] e slices_S2x800000_S1x800000_0_0) shapeCasts_S1x800000_S800000⟩, ⟨S50000, iotaInDim S50000 32 0⟩] concatenates_S800000_S50000_S850000_d0

/-- The destinations: row 1 of the edge list, then every node once. -/
def dst (e : EdgeList) : EdgeVec :=
  concatenate S850000 0 [⟨S800000, shapeCast _ (extractStridedSlice S1x800000 ![1, 0] e slices_S2x800000_S1x800000_1_0) shapeCasts_S1x800000_S800000⟩, ⟨S50000, iotaInDim S50000 32 0⟩] concatenates_S800000_S50000_S850000_d0

/-- An index below zero counts from the end: the node count is added to it once. -/
def wrap (s : EdgeVec) : EdgeVec :=
  select (cmpi .slt s (broadcastInDim S850000 ![] bcast_S_S850000 (constantI S_ 32 0#32)))
    (addi s (broadcastInDim S850000 ![] bcast_S_S850000 (constantI S_ 32 50000#32))) s

/-- A node's degree: one for every edge that ends in it. -/
def deg (d : EdgeVec) : NodeVec :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32))

/-- The all-zero vector over the nodes. -/
def zeroN : NodeVec := broadcastInDim S50000 ![] bcast_S_S50000 (constant (F := Ideal) S_ .f32 0x00000000#32)

/-- Where the degree is positive. -/
def degPos (d : EdgeVec) : IVec S50000 1 := cmpf (F := Ideal) .ogt (deg d) zeroN

/-- The reciprocal square root of the degree. -/
def degRsqrt (d : EdgeVec) : NodeVec := Host.rsqrt (F := Ideal) (deg d)

/-- The reciprocal square root of the degree where it is positive, zero elsewhere. -/
def dinv (d : EdgeVec) : NodeVec := select (degPos d) (degRsqrt d) zeroN

/-- The edge weight: the product of the two ends' factors. -/
def norm (s d : EdgeVec) : EdgeW :=
  mulf (Host.gather gather_S50000_S850000x1_S850000_n_0_n_n_0_1_1 (dinv d) (broadcastInDim S850000x1 ![0] bcast_S850000_S850000x1_0 (wrap s)))
    (Host.gather gather_S50000_S850000x1_S850000_n_0_n_n_0_1_1 (dinv d) (broadcastInDim S850000x1 ![0] bcast_S850000_S850000x1_0 (wrap d)))

/-- One convolution's aggregation on transformed features `H`, before the rectifier: gather along the sources, scale by the
    edge weight, sum into the destinations, add the bias. -/
def aggPre (H : Feat) (s d : EdgeVec) (n : EdgeW) (b : Bias) : Feat :=
  addf
    (Host.scatterAdd (F := Ideal) scatter_S50000x128_S850000x1_S850000x128_1_0_0_1
      (broadcastInDim S50000x128 ![] bcast_S_S50000x128 (constant (F := Ideal) S_ .f32 0x00000000#32))
      (broadcastInDim S850000x1 ![0] bcast_S850000_S850000x1_0 d)
      (mulf (Host.gather gather_S50000x128_S850000x1_S850000x128_1_0_n_n_0_1_1128 H (broadcastInDim S850000x1 ![0] bcast_S850000_S850000x1_0 (wrap s)))
        (broadcastInDim S850000x128 ![0, 1] bcast_S850000x1_S850000x128_0_1 (broadcastInDim S850000x1 ![0] bcast_S850000_S850000x1_0 n))))
    (broadcastInDim S50000x128 ![0, 1] bcast_S1x128_S50000x128_0_1 (broadcastInDim S1x128 ![1] bcast_S128_S1x128_1 b))

/-- The aggregation, rectified. -/
def agg (H : Feat) (s d : EdgeVec) (n : EdgeW) (b : Bias) : Feat :=
  maximumf (aggPre H s d n b)
    (broadcastInDim S50000x128 ![] bcast_S_S50000x128 (constant (F := Ideal) S_ .f32 0x00000000#32))

/-- The all-zero bias row of the three convolutions' matrix stages. -/
def zrow : Row :=
  shapeCast S1x128 (broadcastInDim S128 ![] bcast_S_S128 (constant (F := Ideal) S_ .f32 0x00000000#32)) shapeCasts_S128_S1x128

/-- A convolution with its matrix stage a dense layer with the zero bias row. -/
def convK (h : Feat) (W : Wt) (b : Bias) (e : EdgeList) : Feat :=
  agg (layerArr (R := 50000) (K := 128) (N := 128) h W (unrow zrow)) (src e) (dst e) (norm (src e) (dst e)) b

/-- A convolution with its matrix stage the host's product. -/
def convH (h : Feat) (W : Wt) (b : Bias) (e : EdgeList) : Feat :=
  agg (Host.dotGeneral (F := Ideal) (DotDims.plain 50000 128 128) none h W) (src e) (dst e) (norm (src e) (dst e)) b

theorem convK_eq_convH (h : Feat) (W : Wt) (b : Bias) (e : EdgeList) : convK h W b e = convH h W b e := by
  unfold convK convH zrow
  rw [layer_zero_row none h W bcast_S_S128 shapeCasts_S128_S1x128]

/-- The decoder's first layer, as a dense layer with a one-row bias and the rectifier. -/
def dec1K (h : Feat) (W : Wt) (b : Bias) : Feat :=
  actArr zf (layerArr (R := 50000) (K := 128) (N := 128) h W (unrow (shapeCast S1x128 b shapeCasts_S128_S1x128)))

/-- The same in the host's spelling. -/
def dec1H (h : Feat) (W : Wt) (b : Bias) : Feat :=
  maximumf (addf (Host.dotGeneral (F := Ideal) (DotDims.plain 50000 128 128) none h W)
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

theorem dec1K_eq_dec1H (h : Feat) (W : Wt) (b : Bias) : dec1K h W b = dec1H h W b :=
  relu_layer none h W b shapeCasts_S128_S1x128 bcast_S128_S1x128_1 bcast_S1x128_S50000x128_0_1 bcast_S_S50000x128

/-- The shapes of the last layer's bias and of the sigmoid's constants broadcast as the host does. -/
theorem bcast_S_S50000x64 : S_.BroadcastsInDim S50000x64 (![] : Fin 0 → Fin S50000x64.rank) := by decide
theorem bcast_S1x64_S50000x64_0_1 : S1x64.BroadcastsInDim S50000x64 (![0, 1] : Fin 2 → Fin S50000x64.rank) := by decide
theorem bcast_S64_S1x64_1 : S64.BroadcastsInDim S1x64 (![1] : Fin 1 → Fin S1x64.rank) := by decide

/-- The decoder's second layer, as a dense layer with a one-row bias and the sigmoid. -/
def dec2K (h : Feat) (W : WtO) (b : BiasO) : Out :=
  sigArr (layerArr (R := 50000) (K := 128) (N := 64) h W (unrow (shapeCast S1x64 b shapeCasts_S64_S1x64)))

/-- The same in the host's spelling. -/
def dec2H (h : Feat) (W : WtO) (b : BiasO) : Out :=
  Host.divf (F := Ideal) (broadcastInDim S50000x64 ![] bcast_S_S50000x64 (constant (F := Ideal) S_ .f32 0x3F800000#32))
    (addf (broadcastInDim S50000x64 ![] bcast_S_S50000x64 (constant (F := Ideal) S_ .f32 0x3F800000#32))
      (Host.exp (F := Ideal) (Host.negf (F := Ideal) (addf (Host.dotGeneral (F := Ideal) (DotDims.plain 50000 128 64) none h W)
        (broadcastInDim S50000x64 ![0, 1] bcast_S1x64_S50000x64_0_1 (broadcastInDim S1x64 ![1] bcast_S64_S1x64_1 b))))))

theorem dec2K_eq_dec2H (h : Feat) (W : WtO) (b : BiasO) : dec2K h W b = dec2H h W b :=
  sigmoid_layer none h W b shapeCasts_S64_S1x64 bcast_S64_S1x64_1 bcast_S1x64_S50000x64_0_1 bcast_S_S50000x64 bcast_S_S50000x64

/-- The network, every matrix stage a dense layer with a one-row bias. -/
def netK (x : Feat) (e : EdgeList) (W1 : Wt) (b1 : Bias) (W2 : Wt) (b2 : Bias) (W3 : Wt) (b3 : Bias) (Wd1 : Wt) (bd1 : Bias)
    (Wd2 : WtO) (bd2 : BiasO) : Out :=
  dec2K (dec1K (convK (convK (convK x W1 b1 e) W2 b2 e) W3 b3 e) Wd1 bd1) Wd2 bd2

/-- The network, every matrix stage the host's product. -/
def netH (x : Feat) (e : EdgeList) (W1 : Wt) (b1 : Bias) (W2 : Wt) (b2 : Bias) (W3 : Wt) (b3 : Bias) (Wd1 : Wt) (bd1 : Bias)
    (Wd2 : WtO) (bd2 : BiasO) : Out :=
  dec2H (dec1H (convH (convH (convH x W1 b1 e) W2 b2 e) W3 b3 e) Wd1 bd1) Wd2 bd2

theorem netK_eq_netH (x : Feat) (e : EdgeList) (W1 : Wt) (b1 : Bias) (W2 : Wt) (b2 : Bias) (W3 : Wt) (b3 : Bias) (Wd1 : Wt)
    (bd1 : Bias) (Wd2 : WtO) (bd2 : BiasO) :
    netK x e W1 b1 W2 b2 W3 b3 Wd1 bd1 Wd2 bd2 = netH x e W1 b1 W2 b2 W3 b3 Wd1 bd1 Wd2 bd2 := by
  unfold netK netH
  rw [convK_eq_convH, convK_eq_convH, convK_eq_convH, dec1K_eq_dec1H, dec2K_eq_dec2H]

end Cert.KernelIdeal.Net

end
-- ==== Proof.Call3.lean ====
/-
  PALLAS CALL 3 OF THE NETWORK AS A WHOLE-ARRAY FUNCTION, at the ideal values.

  The call tiles the 50000 rows into ten blocks of 5000; at each block the body computes, for the block `x` of rows, the whole
  weight matrix `w` and the one-row bias `v`, the dense layer `(x · w) + v` row by row followed by the rectifier, and writes it to the same block of
  rows of the output.  Output row `r` therefore depends on input row `r` only, and since the ten blocks tile the array the
  output array after the call is that function of the WHOLE input array (`arr_eq`), whatever the buffers held when the
  call was entered (`V`).
-/
import proofs.«178937_j87797721465076_1_alg».proof.Proof.Gen.KernelIdeal.Frame
import proofs.«178937_j87797721465076_1_alg».proof.Proof.DenseSpec
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call3

open Cert.KernelIdeal Cert.KernelIdeal.Gen Cert.DenseRow Cert.RowBias Cert.DenseSpec

variable (V : (c : Dev nD) → (b : Ref sig .tc) → Buf (Elt Ideal) ((c : Thread nD τ).loc b))

theorem off_zero : (![0, 0] : Fin 2 → Nat) = fun _ => 0 := funext fun a => by fin_cases a <;> rfl

/-- The whole-array function the call computes. -/
def fn (X : S50000x128.Idx → EReal) (W : S128x128.Idx → EReal) (v : S1x128.Idx → EReal) : S50000x128.Idx → EReal :=
  actArr zf (layerArr (R := 50000) (K := 128) (N := 128) X W (unrow v))

/-- The body's value on one block of rows: the dense layer of the block followed by the rectifier. -/
theorem body_eq (x0 : Vec Ideal S5000x128 .f32) (x1 : Vec Ideal S128x128 .f32) (x2 : Vec Ideal S1x128 .f32) :
    k3_pay1 x0 x1 x2 = actArr zf (layerArr (R := 5000) (K := 128) (N := 128) x0 x1 (unrow x2)) := by
  unfold k3_pay1
  rw [shapeCast_self x0]
  exact (kact _).trans (congrArg (actArr zf) (klayer1Arr dot_S5000x128_S128x128_S5000x128_1_0_0_1_n_n rfl rfl (Cert.PlainDot.lhs_at 5000 128 128) (Cert.PlainDot.rhs_at 5000 128 128) none _ _ x2 _ _))

/-- The printed index maps, decided over the ten grid points: the row-block windows (input 0 and the output) sit at block
    `t` of the rows, the weight and the bias windows at the one block there is. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 4000000 in
/-- What grid point `t` writes back is block `t` of the whole-array function of the arrays as the call finds them. -/
theorem flushed_eq (c : Dev nD) (t : Fin cfg3.N) :
    (dat3 V c).flushed 3 t = ((cfg3.win 3).blk t).view.read (Elt Ideal)
      (fn (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero off_zero]
  simp only [View.ld_unit_zero (S := S5000x128) off_zero, View.ld_unit_zero (S := S128x128) off_zero, View.ld_unit_zero (S := S1x128) off_zero]
  rw [body_eq]
  obtain ⟨e0, e1, e2, e3, e4, e5, e6, e7⟩ := idx_facts t
  have hw : iblk3 V c 1 t = V c (Pipeline.arrRef spec3 1) := by
    funext y
    show V c (Pipeline.arrRef spec3 1) (((cfg3.win 1).blk t).view.emb y) = V c (Pipeline.arrRef spec3 1) y
    refine congrArg _ (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  have hv : iblk3 V c 2 t = V c (Pipeline.arrRef spec3 2) := by
    funext y
    show V c (Pipeline.arrRef spec3 2) (((cfg3.win 2).blk t).view.emb y) = V c (Pipeline.arrRef spec3 2) y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  rw [hw, hv]
  funext j
  show actArr zf (layerArr (R := 5000) (K := 128) (N := 128) (iblk3 V c 0 t) (V c (Pipeline.arrRef spec3 1)) (unrow (V c (Pipeline.arrRef spec3 2)))) j
    = fn (V c (Pipeline.arrRef spec3 0)) (V c (Pipeline.arrRef spec3 1)) (V c (Pipeline.arrRef spec3 2)) (((cfg3.win 3).blk t).view.emb j)
  unfold fn
  refine congrArg (fun r => max r zf) (layer_block (iblk3 V c 0 t) (V c (Pipeline.arrRef spec3 0)) (V c (Pipeline.arrRef spec3 1)) (V c (Pipeline.arrRef spec3 2))
    (t.val * 5000) j (((cfg3.win 3).blk t).view.emb j) ?_ ?_ ?_)
  · show win3_3.index t (0 : Fin 2) * 5000 + 1 * (j 0).val = t.val * 5000 + (j 0).val; omega
  · show win3_3.index t (1 : Fin 2) * 128 + 1 * (j 1).val = (j 1).val; omega
  · intro u z hz0 hz1
    show V c (Pipeline.arrRef spec3 0) (((cfg3.win 0).blk t).view.emb u) = V c (Pipeline.arrRef spec3 0) z
    refine congrArg _ (funext fun a => Fin.ext ?_)
    match a with
    | ⟨0, _⟩ => show win3_0.index t (0 : Fin 2) * 5000 + 1 * (u 0).val = (z 0).val; omega
    | ⟨1, _⟩ => show win3_0.index t (1 : Fin 2) * 128 + 1 * (u 1).val = (z 1).val; omega

/-- Every row of the output lies in the block of the point `row / 5000`. -/
theorem covered (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  have ht : (i 0).val / 5000 < cfg3.N := by rw [hN]; omega
  refine ⟨⟨(i 0).val / 5000, ht⟩, flush3_3 _, ?_⟩
  obtain ⟨-, -, -, -, -, -, e6, e7⟩ := idx_facts ⟨(i 0).val / 5000, ht⟩
  show i ∈ ((View.whole main_v92).slice (win3_3.rect ⟨(i 0).val / 5000, ht⟩)).set
  rw [View.set_slice_whole, Rect.mem_set_unit]
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win3_3.index ⟨(i 0).val / 5000, ht⟩ (1 : Fin 2) * 128 ≤ (i 1).val ∧ (i 1).val < win3_3.index ⟨(i 0).val / 5000, ht⟩ (1 : Fin 2) * 128 + 128
    rw [e7]; omega

/-- The output array after the call. -/
theorem arr_eq (c : Dev nD) : (dat3 V c).arrAt 3 cfg3.N
    = fn (V c (Pipeline.arrRef spec3 0)) (V c (Pipeline.arrRef spec3 1)) (V c (Pipeline.arrRef spec3 2)) :=
  (dat3 V c).arrAt_eq_of_cover 3 _ (fun t _ => flushed_eq V c t) covered

end Cert.KernelIdeal.Call3

end
-- ==== Proof.Call4.lean ====
/-
  PALLAS CALL 4 OF THE NETWORK AS A WHOLE-ARRAY FUNCTION, at the ideal values.

  The call tiles the 50000 rows into ten blocks of 5000; at each block the body computes, for the block `x` of rows, the whole
  weight matrix `w` and the one-row bias `v`, the dense layer `(x · w) + v` row by row followed by the sigmoid, and writes it to the same block of
  rows of the output.  Output row `r` therefore depends on input row `r` only, and since the ten blocks tile the array the
  output array after the call is that function of the WHOLE input array (`arr_eq`), whatever the buffers held when the
  call was entered (`V`).
-/
import proofs.«178937_j87797721465076_1_alg».proof.Proof.Gen.KernelIdeal.Frame
import proofs.«178937_j87797721465076_1_alg».proof.Proof.DenseSpec
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call4

open Cert.KernelIdeal Cert.KernelIdeal.Gen Cert.DenseRow Cert.RowBias Cert.DenseSpec

variable (V : (c : Dev nD) → (b : Ref sig .tc) → Buf (Elt Ideal) ((c : Thread nD τ).loc b))

theorem off_zero : (![0, 0] : Fin 2 → Nat) = fun _ => 0 := funext fun a => by fin_cases a <;> rfl

/-- The whole-array function the call computes. -/
def fn (X : S50000x128.Idx → EReal) (W : S128x64.Idx → EReal) (v : S1x64.Idx → EReal) : S50000x64.Idx → EReal :=
  sigArr (layerArr (R := 50000) (K := 128) (N := 64) X W (unrow v))

/-- The body's value on one block of rows: the dense layer of the block followed by the sigmoid. -/
theorem body_eq (x0 : Vec Ideal S5000x128 .f32) (x1 : Vec Ideal S128x64 .f32) (x2 : Vec Ideal S1x64 .f32) :
    k4_pay1 x0 x1 x2 = sigArr (layerArr (R := 5000) (K := 128) (N := 64) x0 x1 (unrow x2)) := by
  unfold k4_pay1
  rw [shapeCast_self x0]
  exact (klogistic _).trans (congrArg sigArr (klayer1Arr dot_S5000x128_S128x64_S5000x64_1_0_0_1_n_n rfl rfl (Cert.PlainDot.lhs_at 5000 128 64) (Cert.PlainDot.rhs_at 5000 128 64) none _ _ x2 _ _))

/-- The printed index maps, decided over the ten grid points: the row-block windows (input 0 and the output) sit at block
    `t` of the rows, the weight and the bias windows at the one block there is. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

set_option maxHeartbeats 4000000 in
/-- What grid point `t` writes back is block `t` of the whole-array function of the arrays as the call finds them. -/
theorem flushed_eq (c : Dev nD) (t : Fin cfg4.N) :
    (dat4 V c).flushed 3 t = ((cfg4.win 3).blk t).view.read (Elt Ideal)
      (fn (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero off_zero]
  simp only [View.ld_unit_zero (S := S5000x128) off_zero, View.ld_unit_zero (S := S128x64) off_zero, View.ld_unit_zero (S := S1x64) off_zero]
  rw [body_eq]
  obtain ⟨e0, e1, e2, e3, e4, e5, e6, e7⟩ := idx_facts t
  have hw : iblk4 V c 1 t = V c (Pipeline.arrRef spec4 1) := by
    funext y
    show V c (Pipeline.arrRef spec4 1) (((cfg4.win 1).blk t).view.emb y) = V c (Pipeline.arrRef spec4 1) y
    refine congrArg _ (funext fun a => Fin.ext ?_)
    match a with
    | ⟨0, _⟩ => show win4_1.index t (0 : Fin 2) * 128 + 1 * (y 0).val = (y 0).val; omega
    | ⟨1, _⟩ => show win4_1.index t (1 : Fin 2) * 64 + 1 * (y 1).val = (y 1).val; omega
  have hv : iblk4 V c 2 t = V c (Pipeline.arrRef spec4 2) := by
    funext y
    show V c (Pipeline.arrRef spec4 2) (((cfg4.win 2).blk t).view.emb y) = V c (Pipeline.arrRef spec4 2) y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 64 + 1 * (y 1).val = (y 1).val; omega
  rw [hw, hv]
  funext j
  show sigArr (layerArr (R := 5000) (K := 128) (N := 64) (iblk4 V c 0 t) (V c (Pipeline.arrRef spec4 1)) (unrow (V c (Pipeline.arrRef spec4 2)))) j
    = fn (V c (Pipeline.arrRef spec4 0)) (V c (Pipeline.arrRef spec4 1)) (V c (Pipeline.arrRef spec4 2)) (((cfg4.win 3).blk t).view.emb j)
  unfold fn
  refine congrArg Ideal.logistic (layer_block (iblk4 V c 0 t) (V c (Pipeline.arrRef spec4 0)) (V c (Pipeline.arrRef spec4 1)) (V c (Pipeline.arrRef spec4 2))
    (t.val * 5000) j (((cfg4.win 3).blk t).view.emb j) ?_ ?_ ?_)
  · show win4_3.index t (0 : Fin 2) * 5000 + 1 * (j 0).val = t.val * 5000 + (j 0).val; omega
  · show win4_3.index t (1 : Fin 2) * 64 + 1 * (j 1).val = (j 1).val; omega
  · intro u z hz0 hz1
    show V c (Pipeline.arrRef spec4 0) (((cfg4.win 0).blk t).view.emb u) = V c (Pipeline.arrRef spec4 0) z
    refine congrArg _ (funext fun a => Fin.ext ?_)
    match a with
    | ⟨0, _⟩ => show win4_0.index t (0 : Fin 2) * 5000 + 1 * (u 0).val = (z 0).val; omega
    | ⟨1, _⟩ => show win4_0.index t (1 : Fin 2) * 128 + 1 * (u 1).val = (z 1).val; omega

/-- Every row of the output lies in the block of the point `row / 5000`. -/
theorem covered (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 10 := N_4
  have ht : (i 0).val / 5000 < cfg4.N := by rw [hN]; omega
  refine ⟨⟨(i 0).val / 5000, ht⟩, flush4_3 _, ?_⟩
  obtain ⟨-, -, -, -, -, -, e6, e7⟩ := idx_facts ⟨(i 0).val / 5000, ht⟩
  show i ∈ ((View.whole main_v94).slice (win4_3.rect ⟨(i 0).val / 5000, ht⟩)).set
  rw [View.set_slice_whole, Rect.mem_set_unit]
  intro a
  match a with
  | ⟨0, _⟩ =>
    show win4_3.index ⟨(i 0).val / 5000, ht⟩ (0 : Fin 2) * 5000 ≤ (i 0).val ∧ (i 0).val < win4_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win4_3.index ⟨(i 0).val / 5000, ht⟩ (1 : Fin 2) * 64 ≤ (i 1).val ∧ (i 1).val < win4_3.index ⟨(i 0).val / 5000, ht⟩ (1 : Fin 2) * 64 + 64
    rw [e7]; omega

/-- The output array after the call. -/
theorem arr_eq (c : Dev nD) : (dat4 V c).arrAt 3 cfg4.N
    = fn (V c (Pipeline.arrRef spec4 0)) (V c (Pipeline.arrRef spec4 1)) (V c (Pipeline.arrRef spec4 2)) :=
  (dat4 V c).arrAt_eq_of_cover 3 _ (fun t _ => flushed_eq V c t) covered

end Cert.KernelIdeal.Call4

end
-- ==== Proof.LibTypedRef.lean ====
/-
  CONTENTS AT A TYPED REFERENCE'S VALUE TYPE AND AT ITS BUFFER'S OWN TYPE.

  A host function whose operations are listed inside its caller names its buffers by typed references: a buffer together with
  the equation that the buffer's type is the value type `T` it is used at. Such an operation reads a buffer's contents
  moved along that equation to `T` (`ofBuf`) and writes its result moved back (`toBuf`). Both moves are the identity up
  to the equation. Stated here for every typed reference:
  • moved to the buffer's type and back, contents are what they were (`ofBuf_toBuf`);
  • contents moved either way are equal to whatever they are heterogeneously equal to (`ofBuf_eq`, `toBuf_eq`) — for a
    literal reference the two types are the same by computation, so the side condition is then reflexivity.
  The proofs take the reference apart and substitute the equation, which is possible because `T` is a variable here;
  nothing about any particular buffer table is evaluated.
-/
import Idealize.ShloMosaic.Lib.StableHlo

noncomputable section

namespace Cert.TypedRef

open Idealize.ShloMosaic Idealize.ShloMosaic.StableHlo

variable {sig : RefSig} {Val : EltTy → Type} {T : BufTy}

/-- Contents moved to the buffer's own type and back are what they were. -/
theorem ofBuf_toBuf (x : TRef sig T) (v : T.Contents Val) : x.ofBuf (x.toBuf v) = v := by
  obtain ⟨r, te, od, us⟩ := x
  subst te
  rfl

/-- The buffer's contents read at the value type are any value of that type they are heterogeneously equal to. -/
theorem ofBuf_eq (x : TRef sig T) (w' : x.ref.ty.Contents Val) (w : T.Contents Val) (h : HEq w' w) : x.ofBuf w' = w :=
  eq_of_heq ((cast_heq _ w').trans h)

/-- A value written at the buffer's own type is any contents of the buffer it is heterogeneously equal to. -/
theorem toBuf_eq (x : TRef sig T) (v : T.Contents Val) (w' : x.ref.ty.Contents Val) (h : HEq v w') : x.toBuf v = w' :=
  eq_of_heq ((cast_heq _ v).trans h)

end Cert.TypedRef

end
-- ==== Proof.Call2.lean ====
/-
  PALLAS CALL 2 OF THE NETWORK AS A WHOLE-ARRAY FUNCTION, at the ideal values.

  The call tiles the 50000 rows into ten blocks of 5000; at each block the body computes, for the block `x` of rows, the whole
  weight matrix `w` and the one-row bias `v`, the dense layer `(x · w) + v` row by row, and writes it to the same block of
  rows of the output.  Output row `r` therefore depends on input row `r` only, and since the ten blocks tile the array the
  output array after the call is that function of the WHOLE input array (`arr_eq`), whatever the buffers held when the
  call was entered (`V`).
-/
import proofs.«178937_j87797721465076_1_alg».proof.Proof.Gen.KernelIdeal.Frame
import proofs.«178937_j87797721465076_1_alg».proof.Proof.DenseSpec
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call2

open Cert.KernelIdeal Cert.KernelIdeal.Gen Cert.DenseRow Cert.RowBias Cert.DenseSpec

variable (V : (c : Dev nD) → (b : Ref sig .tc) → Buf (Elt Ideal) ((c : Thread nD τ).loc b))

theorem off_zero : (![0, 0] : Fin 2 → Nat) = fun _ => 0 := funext fun a => by fin_cases a <;> rfl

/-- The whole-array function the call computes. -/
def fn (X : S50000x128.Idx → EReal) (W : S128x128.Idx → EReal) (v : S1x128.Idx → EReal) : S50000x128.Idx → EReal :=
  layerArr (R := 50000) (K := 128) (N := 128) X W (unrow v)

/-- The body's value on one block of rows: the dense layer of the block. -/
theorem body_eq (x0 : Vec Ideal S5000x128 .f32) (x1 : Vec Ideal S128x128 .f32) (x2 : Vec Ideal S1x128 .f32) :
    k2_pay1 x0 x1 x2 = layerArr (R := 5000) (K := 128) (N := 128) x0 x1 (unrow x2) := by
  unfold k2_pay1
  rw [shapeCast_self x0]
  exact klayer1Arr dot_S5000x128_S128x128_S5000x128_1_0_0_1_n_n rfl rfl (Cert.PlainDot.lhs_at 5000 128 128) (Cert.PlainDot.rhs_at 5000 128 128) none _ _ x2 _ _

/-- The printed index maps, decided over the ten grid points: the row-block windows (input 0 and the output) sit at block
    `t` of the rows, the weight and the bias windows at the one block there is. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 4000000 in
/-- What grid point `t` writes back is block `t` of the whole-array function of the arrays as the call finds them. -/
theorem flushed_eq (c : Dev nD) (t : Fin cfg2.N) :
    (dat2 V c).flushed 3 t = ((cfg2.win 3).blk t).view.read (Elt Ideal)
      (fn (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero off_zero]
  simp only [View.ld_unit_zero (S := S5000x128) off_zero, View.ld_unit_zero (S := S128x128) off_zero, View.ld_unit_zero (S := S1x128) off_zero]
  rw [body_eq]
  obtain ⟨e0, e1, e2, e3, e4, e5, e6, e7⟩ := idx_facts t
  have hw : iblk2 V c 1 t = V c (Pipeline.arrRef spec2 1) := by
    funext y
    show V c (Pipeline.arrRef spec2 1) (((cfg2.win 1).blk t).view.emb y) = V c (Pipeline.arrRef spec2 1) y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  have hv : iblk2 V c 2 t = V c (Pipeline.arrRef spec2 2) := by
    funext y
    show V c (Pipeline.arrRef spec2 2) (((cfg2.win 2).blk t).view.emb y) = V c (Pipeline.arrRef spec2 2) y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  rw [hw, hv]
  funext j
  show layerArr (R := 5000) (K := 128) (N := 128) (iblk2 V c 0 t) (V c (Pipeline.arrRef spec2 1)) (unrow (V c (Pipeline.arrRef spec2 2))) j
    = fn (V c (Pipeline.arrRef spec2 0)) (V c (Pipeline.arrRef spec2 1)) (V c (Pipeline.arrRef spec2 2)) (((cfg2.win 3).blk t).view.emb j)
  unfold fn
  refine layer_block (iblk2 V c 0 t) (V c (Pipeline.arrRef spec2 0)) (V c (Pipeline.arrRef spec2 1)) (V c (Pipeline.arrRef spec2 2))
    (t.val * 5000) j (((cfg2.win 3).blk t).view.emb j) ?_ ?_ ?_
  · show win2_3.index t (0 : Fin 2) * 5000 + 1 * (j 0).val = t.val * 5000 + (j 0).val; omega
  · show win2_3.index t (1 : Fin 2) * 128 + 1 * (j 1).val = (j 1).val; omega
  · intro u z hz0 hz1
    show V c (Pipeline.arrRef spec2 0) (((cfg2.win 0).blk t).view.emb u) = V c (Pipeline.arrRef spec2 0) z
    refine congrArg _ (funext fun a => Fin.ext ?_)
    match a with
    | ⟨0, _⟩ => show win2_0.index t (0 : Fin 2) * 5000 + 1 * (u 0).val = (z 0).val; omega
    | ⟨1, _⟩ => show win2_0.index t (1 : Fin 2) * 128 + 1 * (u 1).val = (z 1).val; omega

/-- Every row of the output lies in the block of the point `row / 5000`. -/
theorem covered (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  have ht : (i 0).val / 5000 < cfg2.N := by rw [hN]; omega
  refine ⟨⟨(i 0).val / 5000, ht⟩, flush2_3 _, ?_⟩
  obtain ⟨-, -, -, -, -, -, e6, e7⟩ := idx_facts ⟨(i 0).val / 5000, ht⟩
  show i ∈ ((View.whole main_v73).slice (win2_3.rect ⟨(i 0).val / 5000, ht⟩)).set
  rw [View.set_slice_whole, Rect.mem_set_unit]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val ∧ (i 1).val < win2_3.index ⟨(i 0).val / 5000, ht⟩ (1 : Fin 2) * 128 + 128
    rw [e7]; omega

/-- The output array after the call. -/
theorem arr_eq (c : Dev nD) : (dat2 V c).arrAt 3 cfg2.N
    = fn (V c (Pipeline.arrRef spec2 0)) (V c (Pipeline.arrRef spec2 1)) (V c (Pipeline.arrRef spec2 2)) :=
  (dat2 V c).arrAt_eq_of_cover 3 _ (fun t _ => flushed_eq V c t) covered

end Cert.KernelIdeal.Call2

end
-- ==== Proof.Call1.lean ====
/-
  PALLAS CALL 1 OF THE NETWORK AS A WHOLE-ARRAY FUNCTION, at the ideal values.

  The call tiles the 50000 rows into ten blocks of 5000; at each block the body computes, for the block `x` of rows, the whole
  weight matrix `w` and the one-row bias `v`, the dense layer `(x · w) + v` row by row, and writes it to the same block of
  rows of the output.  Output row `r` therefore depends on input row `r` only, and since the ten blocks tile the array the
  output array after the call is that function of the WHOLE input array (`arr_eq`), whatever the buffers held when the
  call was entered (`V`).
-/
import proofs.«178937_j87797721465076_1_alg».proof.Proof.Gen.KernelIdeal.Frame
import proofs.«178937_j87797721465076_1_alg».proof.Proof.DenseSpec
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call1

open Cert.KernelIdeal Cert.KernelIdeal.Gen Cert.DenseRow Cert.RowBias Cert.DenseSpec

variable (V : (c : Dev nD) → (b : Ref sig .tc) → Buf (Elt Ideal) ((c : Thread nD τ).loc b))

theorem off_zero : (![0, 0] : Fin 2 → Nat) = fun _ => 0 := funext fun a => by fin_cases a <;> rfl

/-- The whole-array function the call computes. -/
def fn (X : S50000x128.Idx → EReal) (W : S128x128.Idx → EReal) (v : S1x128.Idx → EReal) : S50000x128.Idx → EReal :=
  layerArr (R := 50000) (K := 128) (N := 128) X W (unrow v)

/-- The body's value on one block of rows: the dense layer of the block. -/
theorem body_eq (x0 : Vec Ideal S5000x128 .f32) (x1 : Vec Ideal S128x128 .f32) (x2 : Vec Ideal S1x128 .f32) :
    k1_pay1 x0 x1 x2 = layerArr (R := 5000) (K := 128) (N := 128) x0 x1 (unrow x2) := by
  unfold k1_pay1
  rw [shapeCast_self x0]
  exact klayer1Arr dot_S5000x128_S128x128_S5000x128_1_0_0_1_n_n rfl rfl (Cert.PlainDot.lhs_at 5000 128 128) (Cert.PlainDot.rhs_at 5000 128 128) none _ _ x2 _ _

/-- The printed index maps, decided over the ten grid points: the row-block windows (input 0 and the output) sit at block
    `t` of the rows, the weight and the bias windows at the one block there is. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 4000000 in
/-- What grid point `t` writes back is block `t` of the whole-array function of the arrays as the call finds them. -/
theorem flushed_eq (c : Dev nD) (t : Fin cfg1.N) :
    (dat1 V c).flushed 3 t = ((cfg1.win 3).blk t).view.read (Elt Ideal)
      (fn (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero off_zero]
  simp only [View.ld_unit_zero (S := S5000x128) off_zero, View.ld_unit_zero (S := S128x128) off_zero, View.ld_unit_zero (S := S1x128) off_zero]
  rw [body_eq]
  obtain ⟨e0, e1, e2, e3, e4, e5, e6, e7⟩ := idx_facts t
  have hw : iblk1 V c 1 t = V c (Pipeline.arrRef spec1 1) := by
    funext y
    show V c (Pipeline.arrRef spec1 1) (((cfg1.win 1).blk t).view.emb y) = V c (Pipeline.arrRef spec1 1) y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  have hv : iblk1 V c 2 t = V c (Pipeline.arrRef spec1 2) := by
    funext y
    show V c (Pipeline.arrRef spec1 2) (((cfg1.win 2).blk t).view.emb y) = V c (Pipeline.arrRef spec1 2) y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  rw [hw, hv]
  funext j
  show layerArr (R := 5000) (K := 128) (N := 128) (iblk1 V c 0 t) (V c (Pipeline.arrRef spec1 1)) (unrow (V c (Pipeline.arrRef spec1 2))) j
    = fn (V c (Pipeline.arrRef spec1 0)) (V c (Pipeline.arrRef spec1 1)) (V c (Pipeline.arrRef spec1 2)) (((cfg1.win 3).blk t).view.emb j)
  unfold fn
  refine layer_block (iblk1 V c 0 t) (V c (Pipeline.arrRef spec1 0)) (V c (Pipeline.arrRef spec1 1)) (V c (Pipeline.arrRef spec1 2))
    (t.val * 5000) j (((cfg1.win 3).blk t).view.emb j) ?_ ?_ ?_
  · show win1_3.index t (0 : Fin 2) * 5000 + 1 * (j 0).val = t.val * 5000 + (j 0).val; omega
  · show win1_3.index t (1 : Fin 2) * 128 + 1 * (j 1).val = (j 1).val; omega
  · intro u z hz0 hz1
    show V c (Pipeline.arrRef spec1 0) (((cfg1.win 0).blk t).view.emb u) = V c (Pipeline.arrRef spec1 0) z
    refine congrArg _ (funext fun a => Fin.ext ?_)
    match a with
    | ⟨0, _⟩ => show win1_0.index t (0 : Fin 2) * 5000 + 1 * (u 0).val = (z 0).val; omega
    | ⟨1, _⟩ => show win1_0.index t (1 : Fin 2) * 128 + 1 * (u 1).val = (z 1).val; omega

/-- Every row of the output lies in the block of the point `row / 5000`. -/
theorem covered (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have ht : (i 0).val / 5000 < cfg1.N := by rw [hN]; omega
  refine ⟨⟨(i 0).val / 5000, ht⟩, flush1_3 _, ?_⟩
  obtain ⟨-, -, -, -, -, -, e6, e7⟩ := idx_facts ⟨(i 0).val / 5000, ht⟩
  show i ∈ ((View.whole main_v53).slice (win1_3.rect ⟨(i 0).val / 5000, ht⟩)).set
  rw [View.set_slice_whole, Rect.mem_set_unit]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    rw [e7]; omega

/-- The output array after the call. -/
theorem arr_eq (c : Dev nD) : (dat1 V c).arrAt 3 cfg1.N
    = fn (V c (Pipeline.arrRef spec1 0)) (V c (Pipeline.arrRef spec1 1)) (V c (Pipeline.arrRef spec1 2)) :=
  (dat1 V c).arrAt_eq_of_cover 3 _ (fun t _ => flushed_eq V c t) covered

end Cert.KernelIdeal.Call1

end
-- ==== Proof.Call0.lean ====
/-
  PALLAS CALL 0 OF THE NETWORK AS A WHOLE-ARRAY FUNCTION, at the ideal values.

  The call tiles the 50000 rows into ten blocks of 5000; at each block the body computes, for the block `x` of rows, the whole
  weight matrix `w` and the one-row bias `v`, the dense layer `(x · w) + v` row by row, and writes it to the same block of
  rows of the output.  Output row `r` therefore depends on input row `r` only, and since the ten blocks tile the array the
  output array after the call is that function of the WHOLE input array (`arr_eq`), whatever the buffers held when the
  call was entered (`V`).
-/
import proofs.«178937_j87797721465076_1_alg».proof.Proof.Gen.KernelIdeal.Frame
import proofs.«178937_j87797721465076_1_alg».proof.Proof.DenseSpec
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call0

open Cert.KernelIdeal Cert.KernelIdeal.Gen Cert.DenseRow Cert.RowBias Cert.DenseSpec

variable (V : (c : Dev nD) → (b : Ref sig .tc) → Buf (Elt Ideal) ((c : Thread nD τ).loc b))

theorem off_zero : (![0, 0] : Fin 2 → Nat) = fun _ => 0 := funext fun a => by fin_cases a <;> rfl

/-- The whole-array function the call computes. -/
def fn (X : S50000x128.Idx → EReal) (W : S128x128.Idx → EReal) (v : S1x128.Idx → EReal) : S50000x128.Idx → EReal :=
  layerArr (R := 50000) (K := 128) (N := 128) X W (unrow v)

/-- The body's value on one block of rows: the dense layer of the block. -/
theorem body_eq (x0 : Vec Ideal S5000x128 .f32) (x1 : Vec Ideal S128x128 .f32) (x2 : Vec Ideal S1x128 .f32) :
    k0_pay1 x0 x1 x2 = layerArr (R := 5000) (K := 128) (N := 128) x0 x1 (unrow x2) := by
  unfold k0_pay1
  exact klayer1Arr dot_S5000x128_S128x128_S5000x128_1_0_0_1_n_n rfl rfl (Cert.PlainDot.lhs_at 5000 128 128) (Cert.PlainDot.rhs_at 5000 128 128) none _ _ x2 _ _

/-- The printed index maps, decided over the ten grid points: the row-block windows (input 0 and the output) sit at block
    `t` of the rows, the weight and the bias windows at the one block there is. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 4000000 in
/-- What grid point `t` writes back is block `t` of the whole-array function of the arrays as the call finds them. -/
theorem flushed_eq (c : Dev nD) (t : Fin cfg0.N) :
    (dat0 V c).flushed 3 t = ((cfg0.win 3).blk t).view.read (Elt Ideal)
      (fn (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero off_zero]
  simp only [View.ld_unit_zero (S := S5000x128) off_zero, View.ld_unit_zero (S := S128x128) off_zero, View.ld_unit_zero (S := S1x128) off_zero]
  rw [body_eq]
  obtain ⟨e0, e1, e2, e3, e4, e5, e6, e7⟩ := idx_facts t
  have hw : iblk0 V c 1 t = V c (Pipeline.arrRef spec0 1) := by
    funext y
    show V c (Pipeline.arrRef spec0 1) (((cfg0.win 1).blk t).view.emb y) = V c (Pipeline.arrRef spec0 1) y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have hv : iblk0 V c 2 t = V c (Pipeline.arrRef spec0 2) := by
    funext y
    show V c (Pipeline.arrRef spec0 2) (((cfg0.win 2).blk t).view.emb y) = V c (Pipeline.arrRef spec0 2) y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  rw [hw, hv]
  funext j
  show layerArr (R := 5000) (K := 128) (N := 128) (iblk0 V c 0 t) (V c (Pipeline.arrRef spec0 1)) (unrow (V c (Pipeline.arrRef spec0 2))) j
    = fn (V c (Pipeline.arrRef spec0 0)) (V c (Pipeline.arrRef spec0 1)) (V c (Pipeline.arrRef spec0 2)) (((cfg0.win 3).blk t).view.emb j)
  unfold fn
  refine layer_block (iblk0 V c 0 t) (V c (Pipeline.arrRef spec0 0)) (V c (Pipeline.arrRef spec0 1)) (V c (Pipeline.arrRef spec0 2))
    (t.val * 5000) j (((cfg0.win 3).blk t).view.emb j) ?_ ?_ ?_
  · show win0_3.index t (0 : Fin 2) * 5000 + 1 * (j 0).val = t.val * 5000 + (j 0).val; omega
  · show win0_3.index t (1 : Fin 2) * 128 + 1 * (j 1).val = (j 1).val; omega
  · intro u z hz0 hz1
    show V c (Pipeline.arrRef spec0 0) (((cfg0.win 0).blk t).view.emb u) = V c (Pipeline.arrRef spec0 0) z
    refine congrArg _ (funext fun a => Fin.ext ?_)
    match a with
    | ⟨0, _⟩ => show win0_0.index t (0 : Fin 2) * 5000 + 1 * (u 0).val = (z 0).val; omega
    | ⟨1, _⟩ => show win0_0.index t (1 : Fin 2) * 128 + 1 * (u 1).val = (z 1).val; omega

/-- Every row of the output lies in the block of the point `row / 5000`. -/
theorem covered (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by rw [hN]; omega
  refine ⟨⟨(i 0).val / 5000, ht⟩, flush0_3 _, ?_⟩
  obtain ⟨-, -, -, -, -, -, e6, e7⟩ := idx_facts ⟨(i 0).val / 5000, ht⟩
  show i ∈ ((View.whole main_v33).slice (win0_3.rect ⟨(i 0).val / 5000, ht⟩)).set
  rw [View.set_slice_whole, Rect.mem_set_unit]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e7]; omega

/-- The output array after the call. -/
theorem arr_eq (c : Dev nD) : (dat0 V c).arrAt 3 cfg0.N
    = fn (V c (Pipeline.arrRef spec0 0)) (V c (Pipeline.arrRef spec0 1)) (V c (Pipeline.arrRef spec0 2)) :=
  (dat0 V c).arrAt_eq_of_cover 3 _ (fun t _ => flushed_eq V c t) covered

end Cert.KernelIdeal.Call0

end
-- ==== Proof.St3.lean ====
/-
  THE KERNEL PROGRAM'S BUFFERS, SEGMENT BY SEGMENT, at the ideal values — BEFORE THE FIRST CALL: the edge vectors, the edge weights, the zero bias row, and the arguments, after the first three stretches of host operations.

  The program's run is a fold of eighteen segments over the launch memory.  Read here is what the few buffers that later
  segments still read hold at the boundaries named above, each as the corresponding stage of the network `Net.netK` of the
  argument arrays.  A stretch of host operations is read by rewriting each operation's result at its own buffer to its
  function's value and at every other buffer to what was there; a call's output by the call's value lemma; a buffer a call
  does not own passes through it.
-/
import proofs.«178937_j87797721465076_1_alg».proof.Proof.Gen.KernelIdeal.Frame
import proofs.«178937_j87797721465076_1_alg».proof.Proof.NetSpec
import proofs.«178937_j87797721465076_1_alg».proof.Proof.LibTypedRef
import Idealize.ShloMosaic.Lib.StableHlo.Run

-- one theorem at a time: each reads a stretch of the program by one rewriting pass
set_option Elab.async false
set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem w1_v3 (c : Dev nD) : W1 m ρ c (Proc.devRef .tc main_v3) = (Net.src (m ((c : Thread nD τ).loc main_arg1))) := by
  show StableHlo.after hostOps0 (W0 m ρ c) (Proc.devRef .tc main_v3) = _
  simp only [hostOps0]
  after_results_simp
  all_goals rfl

theorem w1_v6 (c : Dev nD) : W1 m ρ c (Proc.devRef .tc main_v6) = (Net.dst (m ((c : Thread nD τ).loc main_arg1))) := by
  show StableHlo.after hostOps0 (W0 m ρ c) (Proc.devRef .tc main_v6) = _
  simp only [hostOps0]
  after_results_simp
  all_goals rfl

theorem w1_v12 (c : Dev nD) : W1 m ρ c (Proc.devRef .tc main_v12) = (Net.degPos (Net.dst (m ((c : Thread nD τ).loc main_arg1)))) := by
  show StableHlo.after hostOps0 (W0 m ρ c) (Proc.devRef .tc main_v12) = _
  simp only [hostOps0]
  after_results_simp
  all_goals rfl

theorem w1_v13 (c : Dev nD) : W1 m ρ c (Proc.devRef .tc main_v13) = (Net.degRsqrt (Net.dst (m ((c : Thread nD τ).loc main_arg1)))) := by
  show StableHlo.after hostOps0 (W0 m ρ c) (Proc.devRef .tc main_v13) = _
  simp only [hostOps0]
  after_results_simp
  all_goals rfl

theorem w1_v14 (c : Dev nD) : W1 m ρ c (Proc.devRef .tc main_v14) = Net.zeroN := by
  show StableHlo.after hostOps0 (W0 m ρ c) (Proc.devRef .tc main_v14) = _
  simp only [hostOps0]
  after_results_simp
  all_goals rfl

theorem w1_arg0 (c : Dev nD) : W1 m ρ c (Proc.devRef .tc main_arg0) = (m ((c : Thread nD τ).loc main_arg0)) := by
  show StableHlo.after hostOps0 (W0 m ρ c) (Proc.devRef .tc main_arg0) = _
  simp only [hostOps0]
  after_results_simp
  all_goals rfl

theorem w1_arg2 (c : Dev nD) : W1 m ρ c (Proc.devRef .tc main_arg2) = (m ((c : Thread nD τ).loc main_arg2)) := by
  show StableHlo.after hostOps0 (W0 m ρ c) (Proc.devRef .tc main_arg2) = _
  simp only [hostOps0]
  after_results_simp
  all_goals rfl

theorem w1_arg3 (c : Dev nD) : W1 m ρ c (Proc.devRef .tc main_arg3) = (m ((c : Thread nD τ).loc main_arg3)) := by
  show StableHlo.after hostOps0 (W0 m ρ c) (Proc.devRef .tc main_arg3) = _
  simp only [hostOps0]
  after_results_simp
  all_goals rfl

theorem w1_arg4 (c : Dev nD) : W1 m ρ c (Proc.devRef .tc main_arg4) = (m ((c : Thread nD τ).loc main_arg4)) := by
  show StableHlo.after hostOps0 (W0 m ρ c) (Proc.devRef .tc main_arg4) = _
  simp only [hostOps0]
  after_results_simp
  all_goals rfl

theorem w1_arg5 (c : Dev nD) : W1 m ρ c (Proc.devRef .tc main_arg5) = (m ((c : Thread nD τ).loc main_arg5)) := by
  show StableHlo.after hostOps0 (W0 m ρ c) (Proc.devRef .tc main_arg5) = _
  simp only [hostOps0]
  after_results_simp
  all_goals rfl

theorem w1_arg6 (c : Dev nD) : W1 m ρ c (Proc.devRef .tc main_arg6) = (m ((c : Thread nD τ).loc main_arg6)) := by
  show StableHlo.after hostOps0 (W0 m ρ c) (Proc.devRef .tc main_arg6) = _
  simp only [hostOps0]
  after_results_simp
  all_goals rfl

theorem w1_arg7 (c : Dev nD) : W1 m ρ c (Proc.devRef .tc main_arg7) = (m ((c : Thread nD τ).loc main_arg7)) := by
  show StableHlo.after hostOps0 (W0 m ρ c) (Proc.devRef .tc main_arg7) = _
  simp only [hostOps0]
  after_results_simp
  all_goals rfl

theorem w1_arg8 (c : Dev nD) : W1 m ρ c (Proc.devRef .tc main_arg8) = (m ((c : Thread nD τ).loc main_arg8)) := by
  show StableHlo.after hostOps0 (W0 m ρ c) (Proc.devRef .tc main_arg8) = _
  simp only [hostOps0]
  after_results_simp
  all_goals rfl

theorem w1_arg9 (c : Dev nD) : W1 m ρ c (Proc.devRef .tc main_arg9) = (m ((c : Thread nD τ).loc main_arg9)) := by
  show StableHlo.after hostOps0 (W0 m ρ c) (Proc.devRef .tc main_arg9) = _
  simp only [hostOps0]
  after_results_simp
  all_goals rfl

theorem w1_arg10 (c : Dev nD) : W1 m ρ c (Proc.devRef .tc main_arg10) = (m ((c : Thread nD τ).loc main_arg10)) := by
  show StableHlo.after hostOps0 (W0 m ρ c) (Proc.devRef .tc main_arg10) = _
  simp only [hostOps0]
  after_results_simp
  all_goals rfl

theorem w1_arg11 (c : Dev nD) : W1 m ρ c (Proc.devRef .tc main_arg11) = (m ((c : Thread nD τ).loc main_arg11)) := by
  show StableHlo.after hostOps0 (W0 m ρ c) (Proc.devRef .tc main_arg11) = _
  simp only [hostOps0]
  after_results_simp
  all_goals rfl

theorem w2_v15 (c : Dev nD) : W2 m ρ c (Proc.devRef .tc main_v15) = (Net.dinv (Net.dst (m ((c : Thread nD τ).loc main_arg1)))) := by
  have h0 := w1_v12 m ρ c
  have h1 := w1_v13 m ρ c
  have h2 := w1_v14 m ρ c
  show StableHlo.after hostOps0_1 (W1 m ρ c) (Proc.devRef .tc main_v15) = _
  generalize W1 m ρ c = V at h0 h1 h2 ⊢
  simp only [hostOps0_1]
  after_results_simp
  simp only [h0, h1, h2, Cert.TypedRef.ofBuf_toBuf]
  refine Cert.TypedRef.toBuf_eq _ _ _ ?_
  rw [Cert.TypedRef.ofBuf_eq _ _ (Net.degPos (Net.dst (m ((c : Thread nD τ).loc main_arg1)))) HEq.rfl,
    Cert.TypedRef.ofBuf_eq _ _ (Net.degRsqrt (Net.dst (m ((c : Thread nD τ).loc main_arg1)))) HEq.rfl,
    Cert.TypedRef.ofBuf_eq _ _ Net.zeroN HEq.rfl]
  exact HEq.rfl

theorem w2_v3 (c : Dev nD) : W2 m ρ c (Proc.devRef .tc main_v3) = (Net.src (m ((c : Thread nD τ).loc main_arg1))) := by
  have h0 := w1_v3 m ρ c
  show StableHlo.after hostOps0_1 (W1 m ρ c) (Proc.devRef .tc main_v3) = _
  generalize W1 m ρ c = V at h0 ⊢
  simp only [hostOps0_1]
  after_results_simp
  all_goals exact h0

theorem w2_v6 (c : Dev nD) : W2 m ρ c (Proc.devRef .tc main_v6) = (Net.dst (m ((c : Thread nD τ).loc main_arg1))) := by
  have h0 := w1_v6 m ρ c
  show StableHlo.after hostOps0_1 (W1 m ρ c) (Proc.devRef .tc main_v6) = _
  generalize W1 m ρ c = V at h0 ⊢
  simp only [hostOps0_1]
  after_results_simp
  all_goals exact h0

theorem w2_arg0 (c : Dev nD) : W2 m ρ c (Proc.devRef .tc main_arg0) = (m ((c : Thread nD τ).loc main_arg0)) := by
  have h0 := w1_arg0 m ρ c
  show StableHlo.after hostOps0_1 (W1 m ρ c) (Proc.devRef .tc main_arg0) = _
  generalize W1 m ρ c = V at h0 ⊢
  simp only [hostOps0_1]
  after_results_simp
  all_goals exact h0

theorem w2_arg2 (c : Dev nD) : W2 m ρ c (Proc.devRef .tc main_arg2) = (m ((c : Thread nD τ).loc main_arg2)) := by
  have h0 := w1_arg2 m ρ c
  show StableHlo.after hostOps0_1 (W1 m ρ c) (Proc.devRef .tc main_arg2) = _
  generalize W1 m ρ c = V at h0 ⊢
  simp only [hostOps0_1]
  after_results_simp
  all_goals exact h0

theorem w2_arg3 (c : Dev nD) : W2 m ρ c (Proc.devRef .tc main_arg3) = (m ((c : Thread nD τ).loc main_arg3)) := by
  have h0 := w1_arg3 m ρ c
  show StableHlo.after hostOps0_1 (W1 m ρ c) (Proc.devRef .tc main_arg3) = _
  generalize W1 m ρ c = V at h0 ⊢
  simp only [hostOps0_1]
  after_results_simp
  all_goals exact h0

theorem w2_arg4 (c : Dev nD) : W2 m ρ c (Proc.devRef .tc main_arg4) = (m ((c : Thread nD τ).loc main_arg4)) := by
  have h0 := w1_arg4 m ρ c
  show StableHlo.after hostOps0_1 (W1 m ρ c) (Proc.devRef .tc main_arg4) = _
  generalize W1 m ρ c = V at h0 ⊢
  simp only [hostOps0_1]
  after_results_simp
  all_goals exact h0

theorem w2_arg5 (c : Dev nD) : W2 m ρ c (Proc.devRef .tc main_arg5) = (m ((c : Thread nD τ).loc main_arg5)) := by
  have h0 := w1_arg5 m ρ c
  show StableHlo.after hostOps0_1 (W1 m ρ c) (Proc.devRef .tc main_arg5) = _
  generalize W1 m ρ c = V at h0 ⊢
  simp only [hostOps0_1]
  after_results_simp
  all_goals exact h0

theorem w2_arg6 (c : Dev nD) : W2 m ρ c (Proc.devRef .tc main_arg6) = (m ((c : Thread nD τ).loc main_arg6)) := by
  have h0 := w1_arg6 m ρ c
  show StableHlo.after hostOps0_1 (W1 m ρ c) (Proc.devRef .tc main_arg6) = _
  generalize W1 m ρ c = V at h0 ⊢
  simp only [hostOps0_1]
  after_results_simp
  all_goals exact h0

theorem w2_arg7 (c : Dev nD) : W2 m ρ c (Proc.devRef .tc main_arg7) = (m ((c : Thread nD τ).loc main_arg7)) := by
  have h0 := w1_arg7 m ρ c
  show StableHlo.after hostOps0_1 (W1 m ρ c) (Proc.devRef .tc main_arg7) = _
  generalize W1 m ρ c = V at h0 ⊢
  simp only [hostOps0_1]
  after_results_simp
  all_goals exact h0

theorem w2_arg8 (c : Dev nD) : W2 m ρ c (Proc.devRef .tc main_arg8) = (m ((c : Thread nD τ).loc main_arg8)) := by
  have h0 := w1_arg8 m ρ c
  show StableHlo.after hostOps0_1 (W1 m ρ c) (Proc.devRef .tc main_arg8) = _
  generalize W1 m ρ c = V at h0 ⊢
  simp only [hostOps0_1]
  after_results_simp
  all_goals exact h0

theorem w2_arg9 (c : Dev nD) : W2 m ρ c (Proc.devRef .tc main_arg9) = (m ((c : Thread nD τ).loc main_arg9)) := by
  have h0 := w1_arg9 m ρ c
  show StableHlo.after hostOps0_1 (W1 m ρ c) (Proc.devRef .tc main_arg9) = _
  generalize W1 m ρ c = V at h0 ⊢
  simp only [hostOps0_1]
  after_results_simp
  all_goals exact h0

theorem w2_arg10 (c : Dev nD) : W2 m ρ c (Proc.devRef .tc main_arg10) = (m ((c : Thread nD τ).loc main_arg10)) := by
  have h0 := w1_arg10 m ρ c
  show StableHlo.after hostOps0_1 (W1 m ρ c) (Proc.devRef .tc main_arg10) = _
  generalize W1 m ρ c = V at h0 ⊢
  simp only [hostOps0_1]
  after_results_simp
  all_goals exact h0

theorem w2_arg11 (c : Dev nD) : W2 m ρ c (Proc.devRef .tc main_arg11) = (m ((c : Thread nD τ).loc main_arg11)) := by
  have h0 := w1_arg11 m ρ c
  show StableHlo.after hostOps0_1 (W1 m ρ c) (Proc.devRef .tc main_arg11) = _
  generalize W1 m ρ c = V at h0 ⊢
  simp only [hostOps0_1]
  after_results_simp
  all_goals exact h0

theorem w3_v30 (c : Dev nD) : W3 m ρ c (Proc.devRef .tc main_v30) = (Net.norm (Net.src (m ((c : Thread nD τ).loc main_arg1))) (Net.dst (m ((c : Thread nD τ).loc main_arg1)))) := by
  have h0 := w2_v15 m ρ c
  have h1 := w2_v3 m ρ c
  have h2 := w2_v6 m ρ c
  show StableHlo.after hostOps0_2 (W2 m ρ c) (Proc.devRef .tc main_v30) = _
  generalize W2 m ρ c = V at h0 h1 h2 ⊢
  simp only [hostOps0_2]
  after_results_simp
  simp only [h0, h1, h2]
  all_goals rfl

theorem w3_v32 (c : Dev nD) : W3 m ρ c (Proc.devRef .tc main_v32) = Net.zrow := by
  show StableHlo.after hostOps0_2 (W2 m ρ c) (Proc.devRef .tc main_v32) = _
  generalize W2 m ρ c = V at  ⊢
  simp only [hostOps0_2]
  after_results_simp
  all_goals rfl

theorem w3_v3 (c : Dev nD) : W3 m ρ c (Proc.devRef .tc main_v3) = (Net.src (m ((c : Thread nD τ).loc main_arg1))) := by
  have h0 := w2_v3 m ρ c
  show StableHlo.after hostOps0_2 (W2 m ρ c) (Proc.devRef .tc main_v3) = _
  generalize W2 m ρ c = V at h0 ⊢
  simp only [hostOps0_2]
  after_results_simp
  all_goals exact h0

theorem w3_v6 (c : Dev nD) : W3 m ρ c (Proc.devRef .tc main_v6) = (Net.dst (m ((c : Thread nD τ).loc main_arg1))) := by
  have h0 := w2_v6 m ρ c
  show StableHlo.after hostOps0_2 (W2 m ρ c) (Proc.devRef .tc main_v6) = _
  generalize W2 m ρ c = V at h0 ⊢
  simp only [hostOps0_2]
  after_results_simp
  all_goals exact h0

theorem w3_arg0 (c : Dev nD) : W3 m ρ c (Proc.devRef .tc main_arg0) = (m ((c : Thread nD τ).loc main_arg0)) := by
  have h0 := w2_arg0 m ρ c
  show StableHlo.after hostOps0_2 (W2 m ρ c) (Proc.devRef .tc main_arg0) = _
  generalize W2 m ρ c = V at h0 ⊢
  simp only [hostOps0_2]
  after_results_simp
  all_goals exact h0

theorem w3_arg2 (c : Dev nD) : W3 m ρ c (Proc.devRef .tc main_arg2) = (m ((c : Thread nD τ).loc main_arg2)) := by
  have h0 := w2_arg2 m ρ c
  show StableHlo.after hostOps0_2 (W2 m ρ c) (Proc.devRef .tc main_arg2) = _
  generalize W2 m ρ c = V at h0 ⊢
  simp only [hostOps0_2]
  after_results_simp
  all_goals exact h0

theorem w3_arg3 (c : Dev nD) : W3 m ρ c (Proc.devRef .tc main_arg3) = (m ((c : Thread nD τ).loc main_arg3)) := by
  have h0 := w2_arg3 m ρ c
  show StableHlo.after hostOps0_2 (W2 m ρ c) (Proc.devRef .tc main_arg3) = _
  generalize W2 m ρ c = V at h0 ⊢
  simp only [hostOps0_2]
  after_results_simp
  all_goals exact h0

theorem w3_arg4 (c : Dev nD) : W3 m ρ c (Proc.devRef .tc main_arg4) = (m ((c : Thread nD τ).loc main_arg4)) := by
  have h0 := w2_arg4 m ρ c
  show StableHlo.after hostOps0_2 (W2 m ρ c) (Proc.devRef .tc main_arg4) = _
  generalize W2 m ρ c = V at h0 ⊢
  simp only [hostOps0_2]
  after_results_simp
  all_goals exact h0

theorem w3_arg5 (c : Dev nD) : W3 m ρ c (Proc.devRef .tc main_arg5) = (m ((c : Thread nD τ).loc main_arg5)) := by
  have h0 := w2_arg5 m ρ c
  show StableHlo.after hostOps0_2 (W2 m ρ c) (Proc.devRef .tc main_arg5) = _
  generalize W2 m ρ c = V at h0 ⊢
  simp only [hostOps0_2]
  after_results_simp
  all_goals exact h0

theorem w3_arg6 (c : Dev nD) : W3 m ρ c (Proc.devRef .tc main_arg6) = (m ((c : Thread nD τ).loc main_arg6)) := by
  have h0 := w2_arg6 m ρ c
  show StableHlo.after hostOps0_2 (W2 m ρ c) (Proc.devRef .tc main_arg6) = _
  generalize W2 m ρ c = V at h0 ⊢
  simp only [hostOps0_2]
  after_results_simp
  all_goals exact h0

theorem w3_arg7 (c : Dev nD) : W3 m ρ c (Proc.devRef .tc main_arg7) = (m ((c : Thread nD τ).loc main_arg7)) := by
  have h0 := w2_arg7 m ρ c
  show StableHlo.after hostOps0_2 (W2 m ρ c) (Proc.devRef .tc main_arg7) = _
  generalize W2 m ρ c = V at h0 ⊢
  simp only [hostOps0_2]
  after_results_simp
  all_goals exact h0

theorem w3_arg8 (c : Dev nD) : W3 m ρ c (Proc.devRef .tc main_arg8) = (m ((c : Thread nD τ).loc main_arg8)) := by
  have h0 := w2_arg8 m ρ c
  show StableHlo.after hostOps0_2 (W2 m ρ c) (Proc.devRef .tc main_arg8) = _
  generalize W2 m ρ c = V at h0 ⊢
  simp only [hostOps0_2]
  after_results_simp
  all_goals exact h0

theorem w3_arg9 (c : Dev nD) : W3 m ρ c (Proc.devRef .tc main_arg9) = (m ((c : Thread nD τ).loc main_arg9)) := by
  have h0 := w2_arg9 m ρ c
  show StableHlo.after hostOps0_2 (W2 m ρ c) (Proc.devRef .tc main_arg9) = _
  generalize W2 m ρ c = V at h0 ⊢
  simp only [hostOps0_2]
  after_results_simp
  all_goals exact h0

theorem w3_arg10 (c : Dev nD) : W3 m ρ c (Proc.devRef .tc main_arg10) = (m ((c : Thread nD τ).loc main_arg10)) := by
  have h0 := w2_arg10 m ρ c
  show StableHlo.after hostOps0_2 (W2 m ρ c) (Proc.devRef .tc main_arg10) = _
  generalize W2 m ρ c = V at h0 ⊢
  simp only [hostOps0_2]
  after_results_simp
  all_goals exact h0

theorem w3_arg11 (c : Dev nD) : W3 m ρ c (Proc.devRef .tc main_arg11) = (m ((c : Thread nD τ).loc main_arg11)) := by
  have h0 := w2_arg11 m ρ c
  show StableHlo.after hostOps0_2 (W2 m ρ c) (Proc.devRef .tc main_arg11) = _
  generalize W2 m ρ c = V at h0 ⊢
  simp only [hostOps0_2]
  after_results_simp
  all_goals exact h0

end Cert.KernelIdeal.Stages

end
-- ==== Proof.St7.lean ====
/-
  THE KERNEL PROGRAM'S BUFFERS, SEGMENT BY SEGMENT, at the ideal values — THE FIRST CONVOLUTION: the first call's output (the features times the first weights), and after the host's gather, scaling, scatter-add, bias and rectifier the first layer's output; what passes through.

  The program's run is a fold of eighteen segments over the launch memory.  Read here is what the few buffers that later
  segments still read hold at the boundaries named above, each as the corresponding stage of the network `Net.netK` of the
  argument arrays.  A stretch of host operations is read by rewriting each operation's result at its own buffer to its
  function's value and at every other buffer to what was there; a call's output by the call's value lemma; a buffer a call
  does not own passes through it.
-/
import proofs.«178937_j87797721465076_1_alg».proof.Proof.Gen.KernelIdeal.Frame
import proofs.«178937_j87797721465076_1_alg».proof.Proof.NetSpec
import proofs.«178937_j87797721465076_1_alg».proof.Proof.LibTypedRef
import proofs.«178937_j87797721465076_1_alg».proof.Proof.Call0
import proofs.«178937_j87797721465076_1_alg».proof.Proof.St3
import Idealize.ShloMosaic.Lib.StableHlo.Run

-- one theorem at a time: each reads a stretch of the program by one rewriting pass
set_option Elab.async false
set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem w4_v33 (c : Dev nD) : W4 m ρ c (Proc.devRef .tc main_v33) = Call0.fn (m ((c : Thread nD τ).loc main_arg0)) (m ((c : Thread nD τ).loc main_arg2)) Net.zrow := by
  refine (W4_arr m ρ c 3).trans ((Call0.arr_eq (V3 m ρ) c).trans ?_)
  show Call0.fn (W3 m ρ c (Proc.devRef .tc main_arg0)) (W3 m ρ c (Proc.devRef .tc main_arg2)) (W3 m ρ c (Proc.devRef .tc main_v32)) = _
  rw [w3_arg0, w3_arg2, w3_v32]

theorem w4_v3 (c : Dev nD) : W4 m ρ c (Proc.devRef .tc main_v3) = (Net.src (m ((c : Thread nD τ).loc main_arg1))) :=
  (W4_of_ne m ρ c main_v3 (by decide)).trans (w3_v3 m ρ c)

theorem w4_v6 (c : Dev nD) : W4 m ρ c (Proc.devRef .tc main_v6) = (Net.dst (m ((c : Thread nD τ).loc main_arg1))) :=
  (W4_of_ne m ρ c main_v6 (by decide)).trans (w3_v6 m ρ c)

theorem w4_v30 (c : Dev nD) : W4 m ρ c (Proc.devRef .tc main_v30) = (Net.norm (Net.src (m ((c : Thread nD τ).loc main_arg1))) (Net.dst (m ((c : Thread nD τ).loc main_arg1)))) :=
  (W4_of_ne m ρ c main_v30 (by decide)).trans (w3_v30 m ρ c)

theorem w4_arg3 (c : Dev nD) : W4 m ρ c (Proc.devRef .tc main_arg3) = (m ((c : Thread nD τ).loc main_arg3)) :=
  (W4_of_ne m ρ c main_arg3 (by decide)).trans (w3_arg3 m ρ c)

theorem w4_arg4 (c : Dev nD) : W4 m ρ c (Proc.devRef .tc main_arg4) = (m ((c : Thread nD τ).loc main_arg4)) :=
  (W4_of_ne m ρ c main_arg4 (by decide)).trans (w3_arg4 m ρ c)

theorem w4_arg5 (c : Dev nD) : W4 m ρ c (Proc.devRef .tc main_arg5) = (m ((c : Thread nD τ).loc main_arg5)) :=
  (W4_of_ne m ρ c main_arg5 (by decide)).trans (w3_arg5 m ρ c)

theorem w4_arg6 (c : Dev nD) : W4 m ρ c (Proc.devRef .tc main_arg6) = (m ((c : Thread nD τ).loc main_arg6)) :=
  (W4_of_ne m ρ c main_arg6 (by decide)).trans (w3_arg6 m ρ c)

theorem w4_arg7 (c : Dev nD) : W4 m ρ c (Proc.devRef .tc main_arg7) = (m ((c : Thread nD τ).loc main_arg7)) :=
  (W4_of_ne m ρ c main_arg7 (by decide)).trans (w3_arg7 m ρ c)

theorem w4_arg8 (c : Dev nD) : W4 m ρ c (Proc.devRef .tc main_arg8) = (m ((c : Thread nD τ).loc main_arg8)) :=
  (W4_of_ne m ρ c main_arg8 (by decide)).trans (w3_arg8 m ρ c)

theorem w4_arg9 (c : Dev nD) : W4 m ρ c (Proc.devRef .tc main_arg9) = (m ((c : Thread nD τ).loc main_arg9)) :=
  (W4_of_ne m ρ c main_arg9 (by decide)).trans (w3_arg9 m ρ c)

theorem w4_arg10 (c : Dev nD) : W4 m ρ c (Proc.devRef .tc main_arg10) = (m ((c : Thread nD τ).loc main_arg10)) :=
  (W4_of_ne m ρ c main_arg10 (by decide)).trans (w3_arg10 m ρ c)

theorem w4_arg11 (c : Dev nD) : W4 m ρ c (Proc.devRef .tc main_arg11) = (m ((c : Thread nD τ).loc main_arg11)) :=
  (W4_of_ne m ρ c main_arg11 (by decide)).trans (w3_arg11 m ρ c)

theorem w5_v49 (c : Dev nD) : W5 m ρ c (Proc.devRef .tc main_v49) = (Net.aggPre (Call0.fn (m ((c : Thread nD τ).loc main_arg0)) (m ((c : Thread nD τ).loc main_arg2)) Net.zrow) (Net.src (m ((c : Thread nD τ).loc main_arg1))) (Net.dst (m ((c : Thread nD τ).loc main_arg1))) (Net.norm (Net.src (m ((c : Thread nD τ).loc main_arg1))) (Net.dst (m ((c : Thread nD τ).loc main_arg1)))) (m ((c : Thread nD τ).loc main_arg3))) := by
  have h0 := w4_v33 m ρ c
  have h1 := w4_v3 m ρ c
  have h2 := w4_v6 m ρ c
  have h3 := w4_v30 m ρ c
  have h4 := w4_arg3 m ρ c
  show StableHlo.after hostOps1 (W4 m ρ c) (Proc.devRef .tc main_v49) = _
  generalize W4 m ρ c = V at h0 h1 h2 h3 h4 ⊢
  simp only [hostOps1]
  after_results_simp
  simp only [h0, h1, h2, h3, h4]
  all_goals rfl

theorem w7_v50 (c : Dev nD) : W7 m ρ c (Proc.devRef .tc main_v50) = (Net.convK (m ((c : Thread nD τ).loc main_arg0)) (m ((c : Thread nD τ).loc main_arg2)) (m ((c : Thread nD τ).loc main_arg3)) (m ((c : Thread nD τ).loc main_arg1))) := by
  have h0 := w5_v49 m ρ c
  show StableHlo.after hostOps1_2 (StableHlo.after hostOps1_1 (W5 m ρ c)) (Proc.devRef .tc main_v50) = _
  generalize W5 m ρ c = V at h0 ⊢
  simp only [hostOps1_1, hostOps1_2]
  after_results_simp
  simp only [h0, Cert.TypedRef.ofBuf_toBuf]
  refine Cert.TypedRef.toBuf_eq _ _ _ ?_
  rw [Cert.TypedRef.ofBuf_eq _ _ (Net.aggPre (Call0.fn (m ((c : Thread nD τ).loc main_arg0)) (m ((c : Thread nD τ).loc main_arg2)) Net.zrow) (Net.src (m ((c : Thread nD τ).loc main_arg1))) (Net.dst (m ((c : Thread nD τ).loc main_arg1))) (Net.norm (Net.src (m ((c : Thread nD τ).loc main_arg1))) (Net.dst (m ((c : Thread nD τ).loc main_arg1)))) (m ((c : Thread nD τ).loc main_arg3))) HEq.rfl]
  exact HEq.rfl

theorem w7_v52 (c : Dev nD) : W7 m ρ c (Proc.devRef .tc main_v52) = Net.zrow := by
  show StableHlo.after hostOps1_2 (StableHlo.after hostOps1_1 (StableHlo.after hostOps1 (W4 m ρ c))) (Proc.devRef .tc main_v52) = _
  generalize W4 m ρ c = V at  ⊢
  simp only [hostOps1, hostOps1_1, hostOps1_2]
  after_results_simp
  all_goals rfl

theorem w7_v3 (c : Dev nD) : W7 m ρ c (Proc.devRef .tc main_v3) = (Net.src (m ((c : Thread nD τ).loc main_arg1))) := by
  have h0 := w4_v3 m ρ c
  show StableHlo.after hostOps1_2 (StableHlo.after hostOps1_1 (StableHlo.after hostOps1 (W4 m ρ c))) (Proc.devRef .tc main_v3) = _
  generalize W4 m ρ c = V at h0 ⊢
  simp only [hostOps1, hostOps1_1, hostOps1_2]
  after_results_simp
  all_goals exact h0

theorem w7_v6 (c : Dev nD) : W7 m ρ c (Proc.devRef .tc main_v6) = (Net.dst (m ((c : Thread nD τ).loc main_arg1))) := by
  have h0 := w4_v6 m ρ c
  show StableHlo.after hostOps1_2 (StableHlo.after hostOps1_1 (StableHlo.after hostOps1 (W4 m ρ c))) (Proc.devRef .tc main_v6) = _
  generalize W4 m ρ c = V at h0 ⊢
  simp only [hostOps1, hostOps1_1, hostOps1_2]
  after_results_simp
  all_goals exact h0

theorem w7_v30 (c : Dev nD) : W7 m ρ c (Proc.devRef .tc main_v30) = (Net.norm (Net.src (m ((c : Thread nD τ).loc main_arg1))) (Net.dst (m ((c : Thread nD τ).loc main_arg1)))) := by
  have h0 := w4_v30 m ρ c
  show StableHlo.after hostOps1_2 (StableHlo.after hostOps1_1 (StableHlo.after hostOps1 (W4 m ρ c))) (Proc.devRef .tc main_v30) = _
  generalize W4 m ρ c = V at h0 ⊢
  simp only [hostOps1, hostOps1_1, hostOps1_2]
  after_results_simp
  all_goals exact h0

theorem w7_arg4 (c : Dev nD) : W7 m ρ c (Proc.devRef .tc main_arg4) = (m ((c : Thread nD τ).loc main_arg4)) := by
  have h0 := w4_arg4 m ρ c
  show StableHlo.after hostOps1_2 (StableHlo.after hostOps1_1 (StableHlo.after hostOps1 (W4 m ρ c))) (Proc.devRef .tc main_arg4) = _
  generalize W4 m ρ c = V at h0 ⊢
  simp only [hostOps1, hostOps1_1, hostOps1_2]
  after_results_simp
  all_goals exact h0

theorem w7_arg5 (c : Dev nD) : W7 m ρ c (Proc.devRef .tc main_arg5) = (m ((c : Thread nD τ).loc main_arg5)) := by
  have h0 := w4_arg5 m ρ c
  show StableHlo.after hostOps1_2 (StableHlo.after hostOps1_1 (StableHlo.after hostOps1 (W4 m ρ c))) (Proc.devRef .tc main_arg5) = _
  generalize W4 m ρ c = V at h0 ⊢
  simp only [hostOps1, hostOps1_1, hostOps1_2]
  after_results_simp
  all_goals exact h0

theorem w7_arg6 (c : Dev nD) : W7 m ρ c (Proc.devRef .tc main_arg6) = (m ((c : Thread nD τ).loc main_arg6)) := by
  have h0 := w4_arg6 m ρ c
  show StableHlo.after hostOps1_2 (StableHlo.after hostOps1_1 (StableHlo.after hostOps1 (W4 m ρ c))) (Proc.devRef .tc main_arg6) = _
  generalize W4 m ρ c = V at h0 ⊢
  simp only [hostOps1, hostOps1_1, hostOps1_2]
  after_results_simp
  all_goals exact h0

theorem w7_arg7 (c : Dev nD) : W7 m ρ c (Proc.devRef .tc main_arg7) = (m ((c : Thread nD τ).loc main_arg7)) := by
  have h0 := w4_arg7 m ρ c
  show StableHlo.after hostOps1_2 (StableHlo.after hostOps1_1 (StableHlo.after hostOps1 (W4 m ρ c))) (Proc.devRef .tc main_arg7) = _
  generalize W4 m ρ c = V at h0 ⊢
  simp only [hostOps1, hostOps1_1, hostOps1_2]
  after_results_simp
  all_goals exact h0

theorem w7_arg8 (c : Dev nD) : W7 m ρ c (Proc.devRef .tc main_arg8) = (m ((c : Thread nD τ).loc main_arg8)) := by
  have h0 := w4_arg8 m ρ c
  show StableHlo.after hostOps1_2 (StableHlo.after hostOps1_1 (StableHlo.after hostOps1 (W4 m ρ c))) (Proc.devRef .tc main_arg8) = _
  generalize W4 m ρ c = V at h0 ⊢
  simp only [hostOps1, hostOps1_1, hostOps1_2]
  after_results_simp
  all_goals exact h0

theorem w7_arg9 (c : Dev nD) : W7 m ρ c (Proc.devRef .tc main_arg9) = (m ((c : Thread nD τ).loc main_arg9)) := by
  have h0 := w4_arg9 m ρ c
  show StableHlo.after hostOps1_2 (StableHlo.after hostOps1_1 (StableHlo.after hostOps1 (W4 m ρ c))) (Proc.devRef .tc main_arg9) = _
  generalize W4 m ρ c = V at h0 ⊢
  simp only [hostOps1, hostOps1_1, hostOps1_2]
  after_results_simp
  all_goals exact h0

theorem w7_arg10 (c : Dev nD) : W7 m ρ c (Proc.devRef .tc main_arg10) = (m ((c : Thread nD τ).loc main_arg10)) := by
  have h0 := w4_arg10 m ρ c
  show StableHlo.after hostOps1_2 (StableHlo.after hostOps1_1 (StableHlo.after hostOps1 (W4 m ρ c))) (Proc.devRef .tc main_arg10) = _
  generalize W4 m ρ c = V at h0 ⊢
  simp only [hostOps1, hostOps1_1, hostOps1_2]
  after_results_simp
  all_goals exact h0

theorem w7_arg11 (c : Dev nD) : W7 m ρ c (Proc.devRef .tc main_arg11) = (m ((c : Thread nD τ).loc main_arg11)) := by
  have h0 := w4_arg11 m ρ c
  show StableHlo.after hostOps1_2 (StableHlo.after hostOps1_1 (StableHlo.after hostOps1 (W4 m ρ c))) (Proc.devRef .tc main_arg11) = _
  generalize W4 m ρ c = V at h0 ⊢
  simp only [hostOps1, hostOps1_1, hostOps1_2]
  after_results_simp
  all_goals exact h0

end Cert.KernelIdeal.Stages

end
-- ==== Proof.St11.lean ====
/-
  THE KERNEL PROGRAM'S BUFFERS, SEGMENT BY SEGMENT, at the ideal values — THE SECOND CONVOLUTION: the second call's output and the second layer's output after the host's aggregation; what passes through.

  The program's run is a fold of eighteen segments over the launch memory.  Read here is what the few buffers that later
  segments still read hold at the boundaries named above, each as the corresponding stage of the network `Net.netK` of the
  argument arrays.  A stretch of host operations is read by rewriting each operation's result at its own buffer to its
  function's value and at every other buffer to what was there; a call's output by the call's value lemma; a buffer a call
  does not own passes through it.
-/
import proofs.«178937_j87797721465076_1_alg».proof.Proof.Gen.KernelIdeal.Frame
import proofs.«178937_j87797721465076_1_alg».proof.Proof.NetSpec
import proofs.«178937_j87797721465076_1_alg».proof.Proof.LibTypedRef
import proofs.«178937_j87797721465076_1_alg».proof.Proof.Call1
import proofs.«178937_j87797721465076_1_alg».proof.Proof.St7
import Idealize.ShloMosaic.Lib.StableHlo.Run

-- one theorem at a time: each reads a stretch of the program by one rewriting pass
set_option Elab.async false
set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem w8_v53 (c : Dev nD) : W8 m ρ c (Proc.devRef .tc main_v53) = Call1.fn (Net.convK (m ((c : Thread nD τ).loc main_arg0)) (m ((c : Thread nD τ).loc main_arg2)) (m ((c : Thread nD τ).loc main_arg3)) (m ((c : Thread nD τ).loc main_arg1))) (m ((c : Thread nD τ).loc main_arg4)) Net.zrow := by
  refine (W8_arr m ρ c 3).trans ((Call1.arr_eq (V7 m ρ) c).trans ?_)
  show Call1.fn (W7 m ρ c (Proc.devRef .tc main_v50)) (W7 m ρ c (Proc.devRef .tc main_arg4)) (W7 m ρ c (Proc.devRef .tc main_v52)) = _
  rw [w7_v50, w7_arg4, w7_v52]

theorem w8_v3 (c : Dev nD) : W8 m ρ c (Proc.devRef .tc main_v3) = (Net.src (m ((c : Thread nD τ).loc main_arg1))) :=
  (W8_of_ne m ρ c main_v3 (by decide)).trans (w7_v3 m ρ c)

theorem w8_v6 (c : Dev nD) : W8 m ρ c (Proc.devRef .tc main_v6) = (Net.dst (m ((c : Thread nD τ).loc main_arg1))) :=
  (W8_of_ne m ρ c main_v6 (by decide)).trans (w7_v6 m ρ c)

theorem w8_v30 (c : Dev nD) : W8 m ρ c (Proc.devRef .tc main_v30) = (Net.norm (Net.src (m ((c : Thread nD τ).loc main_arg1))) (Net.dst (m ((c : Thread nD τ).loc main_arg1)))) :=
  (W8_of_ne m ρ c main_v30 (by decide)).trans (w7_v30 m ρ c)

theorem w8_arg5 (c : Dev nD) : W8 m ρ c (Proc.devRef .tc main_arg5) = (m ((c : Thread nD τ).loc main_arg5)) :=
  (W8_of_ne m ρ c main_arg5 (by decide)).trans (w7_arg5 m ρ c)

theorem w8_arg6 (c : Dev nD) : W8 m ρ c (Proc.devRef .tc main_arg6) = (m ((c : Thread nD τ).loc main_arg6)) :=
  (W8_of_ne m ρ c main_arg6 (by decide)).trans (w7_arg6 m ρ c)

theorem w8_arg7 (c : Dev nD) : W8 m ρ c (Proc.devRef .tc main_arg7) = (m ((c : Thread nD τ).loc main_arg7)) :=
  (W8_of_ne m ρ c main_arg7 (by decide)).trans (w7_arg7 m ρ c)

theorem w8_arg8 (c : Dev nD) : W8 m ρ c (Proc.devRef .tc main_arg8) = (m ((c : Thread nD τ).loc main_arg8)) :=
  (W8_of_ne m ρ c main_arg8 (by decide)).trans (w7_arg8 m ρ c)

theorem w8_arg9 (c : Dev nD) : W8 m ρ c (Proc.devRef .tc main_arg9) = (m ((c : Thread nD τ).loc main_arg9)) :=
  (W8_of_ne m ρ c main_arg9 (by decide)).trans (w7_arg9 m ρ c)

theorem w8_arg10 (c : Dev nD) : W8 m ρ c (Proc.devRef .tc main_arg10) = (m ((c : Thread nD τ).loc main_arg10)) :=
  (W8_of_ne m ρ c main_arg10 (by decide)).trans (w7_arg10 m ρ c)

theorem w8_arg11 (c : Dev nD) : W8 m ρ c (Proc.devRef .tc main_arg11) = (m ((c : Thread nD τ).loc main_arg11)) :=
  (W8_of_ne m ρ c main_arg11 (by decide)).trans (w7_arg11 m ρ c)

theorem w9_v69 (c : Dev nD) : W9 m ρ c (Proc.devRef .tc main_v69) = (Net.aggPre (Call1.fn (Net.convK (m ((c : Thread nD τ).loc main_arg0)) (m ((c : Thread nD τ).loc main_arg2)) (m ((c : Thread nD τ).loc main_arg3)) (m ((c : Thread nD τ).loc main_arg1))) (m ((c : Thread nD τ).loc main_arg4)) Net.zrow) (Net.src (m ((c : Thread nD τ).loc main_arg1))) (Net.dst (m ((c : Thread nD τ).loc main_arg1))) (Net.norm (Net.src (m ((c : Thread nD τ).loc main_arg1))) (Net.dst (m ((c : Thread nD τ).loc main_arg1)))) (m ((c : Thread nD τ).loc main_arg5))) := by
  have h0 := w8_v53 m ρ c
  have h1 := w8_v3 m ρ c
  have h2 := w8_v6 m ρ c
  have h3 := w8_v30 m ρ c
  have h4 := w8_arg5 m ρ c
  show StableHlo.after hostOps2 (W8 m ρ c) (Proc.devRef .tc main_v69) = _
  generalize W8 m ρ c = V at h0 h1 h2 h3 h4 ⊢
  simp only [hostOps2]
  after_results_simp
  simp only [h0, h1, h2, h3, h4]
  all_goals rfl

theorem w11_v70 (c : Dev nD) : W11 m ρ c (Proc.devRef .tc main_v70) = (Net.convK (Net.convK (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) := by
  have h0 := w9_v69 m ρ c
  show StableHlo.after hostOps2_2 (StableHlo.after hostOps2_1 (W9 m ρ c)) (Proc.devRef .tc main_v70) = _
  generalize W9 m ρ c = V at h0 ⊢
  simp only [hostOps2_1, hostOps2_2]
  after_results_simp
  simp only [h0, Cert.TypedRef.ofBuf_toBuf]
  refine Cert.TypedRef.toBuf_eq _ _ _ ?_
  rw [Cert.TypedRef.ofBuf_eq _ _ (Net.aggPre (Call1.fn (Net.convK (m ((c : Thread nD τ).loc main_arg0)) (m ((c : Thread nD τ).loc main_arg2)) (m ((c : Thread nD τ).loc main_arg3)) (m ((c : Thread nD τ).loc main_arg1))) (m ((c : Thread nD τ).loc main_arg4)) Net.zrow) (Net.src (m ((c : Thread nD τ).loc main_arg1))) (Net.dst (m ((c : Thread nD τ).loc main_arg1))) (Net.norm (Net.src (m ((c : Thread nD τ).loc main_arg1))) (Net.dst (m ((c : Thread nD τ).loc main_arg1)))) (m ((c : Thread nD τ).loc main_arg5))) HEq.rfl]
  exact HEq.rfl

theorem w11_v72 (c : Dev nD) : W11 m ρ c (Proc.devRef .tc main_v72) = Net.zrow := by
  show StableHlo.after hostOps2_2 (StableHlo.after hostOps2_1 (StableHlo.after hostOps2 (W8 m ρ c))) (Proc.devRef .tc main_v72) = _
  generalize W8 m ρ c = V at  ⊢
  simp only [hostOps2, hostOps2_1, hostOps2_2]
  after_results_simp
  all_goals rfl

theorem w11_v3 (c : Dev nD) : W11 m ρ c (Proc.devRef .tc main_v3) = (Net.src (m ((c : Thread nD τ).loc main_arg1))) := by
  have h0 := w8_v3 m ρ c
  show StableHlo.after hostOps2_2 (StableHlo.after hostOps2_1 (StableHlo.after hostOps2 (W8 m ρ c))) (Proc.devRef .tc main_v3) = _
  generalize W8 m ρ c = V at h0 ⊢
  simp only [hostOps2, hostOps2_1, hostOps2_2]
  after_results_simp
  all_goals exact h0

theorem w11_v6 (c : Dev nD) : W11 m ρ c (Proc.devRef .tc main_v6) = (Net.dst (m ((c : Thread nD τ).loc main_arg1))) := by
  have h0 := w8_v6 m ρ c
  show StableHlo.after hostOps2_2 (StableHlo.after hostOps2_1 (StableHlo.after hostOps2 (W8 m ρ c))) (Proc.devRef .tc main_v6) = _
  generalize W8 m ρ c = V at h0 ⊢
  simp only [hostOps2, hostOps2_1, hostOps2_2]
  after_results_simp
  all_goals exact h0

theorem w11_v30 (c : Dev nD) : W11 m ρ c (Proc.devRef .tc main_v30) = (Net.norm (Net.src (m ((c : Thread nD τ).loc main_arg1))) (Net.dst (m ((c : Thread nD τ).loc main_arg1)))) := by
  have h0 := w8_v30 m ρ c
  show StableHlo.after hostOps2_2 (StableHlo.after hostOps2_1 (StableHlo.after hostOps2 (W8 m ρ c))) (Proc.devRef .tc main_v30) = _
  generalize W8 m ρ c = V at h0 ⊢
  simp only [hostOps2, hostOps2_1, hostOps2_2]
  after_results_simp
  all_goals exact h0

theorem w11_arg6 (c : Dev nD) : W11 m ρ c (Proc.devRef .tc main_arg6) = (m ((c : Thread nD τ).loc main_arg6)) := by
  have h0 := w8_arg6 m ρ c
  show StableHlo.after hostOps2_2 (StableHlo.after hostOps2_1 (StableHlo.after hostOps2 (W8 m ρ c))) (Proc.devRef .tc main_arg6) = _
  generalize W8 m ρ c = V at h0 ⊢
  simp only [hostOps2, hostOps2_1, hostOps2_2]
  after_results_simp
  all_goals exact h0

theorem w11_arg7 (c : Dev nD) : W11 m ρ c (Proc.devRef .tc main_arg7) = (m ((c : Thread nD τ).loc main_arg7)) := by
  have h0 := w8_arg7 m ρ c
  show StableHlo.after hostOps2_2 (StableHlo.after hostOps2_1 (StableHlo.after hostOps2 (W8 m ρ c))) (Proc.devRef .tc main_arg7) = _
  generalize W8 m ρ c = V at h0 ⊢
  simp only [hostOps2, hostOps2_1, hostOps2_2]
  after_results_simp
  all_goals exact h0

theorem w11_arg8 (c : Dev nD) : W11 m ρ c (Proc.devRef .tc main_arg8) = (m ((c : Thread nD τ).loc main_arg8)) := by
  have h0 := w8_arg8 m ρ c
  show StableHlo.after hostOps2_2 (StableHlo.after hostOps2_1 (StableHlo.after hostOps2 (W8 m ρ c))) (Proc.devRef .tc main_arg8) = _
  generalize W8 m ρ c = V at h0 ⊢
  simp only [hostOps2, hostOps2_1, hostOps2_2]
  after_results_simp
  all_goals exact h0

theorem w11_arg9 (c : Dev nD) : W11 m ρ c (Proc.devRef .tc main_arg9) = (m ((c : Thread nD τ).loc main_arg9)) := by
  have h0 := w8_arg9 m ρ c
  show StableHlo.after hostOps2_2 (StableHlo.after hostOps2_1 (StableHlo.after hostOps2 (W8 m ρ c))) (Proc.devRef .tc main_arg9) = _
  generalize W8 m ρ c = V at h0 ⊢
  simp only [hostOps2, hostOps2_1, hostOps2_2]
  after_results_simp
  all_goals exact h0

theorem w11_arg10 (c : Dev nD) : W11 m ρ c (Proc.devRef .tc main_arg10) = (m ((c : Thread nD τ).loc main_arg10)) := by
  have h0 := w8_arg10 m ρ c
  show StableHlo.after hostOps2_2 (StableHlo.after hostOps2_1 (StableHlo.after hostOps2 (W8 m ρ c))) (Proc.devRef .tc main_arg10) = _
  generalize W8 m ρ c = V at h0 ⊢
  simp only [hostOps2, hostOps2_1, hostOps2_2]
  after_results_simp
  all_goals exact h0

theorem w11_arg11 (c : Dev nD) : W11 m ρ c (Proc.devRef .tc main_arg11) = (m ((c : Thread nD τ).loc main_arg11)) := by
  have h0 := w8_arg11 m ρ c
  show StableHlo.after hostOps2_2 (StableHlo.after hostOps2_1 (StableHlo.after hostOps2 (W8 m ρ c))) (Proc.devRef .tc main_arg11) = _
  generalize W8 m ρ c = V at h0 ⊢
  simp only [hostOps2, hostOps2_1, hostOps2_2]
  after_results_simp
  all_goals exact h0

end Cert.KernelIdeal.Stages

end
-- ==== Proof.St15.lean ====
/-
  THE KERNEL PROGRAM'S BUFFERS, SEGMENT BY SEGMENT, at the ideal values — THE THIRD CONVOLUTION: the third call's output, the third layer's output after the host's aggregation, and the decoder's first bias as a row; what passes through.

  The program's run is a fold of eighteen segments over the launch memory.  Read here is what the few buffers that later
  segments still read hold at the boundaries named above, each as the corresponding stage of the network `Net.netK` of the
  argument arrays.  A stretch of host operations is read by rewriting each operation's result at its own buffer to its
  function's value and at every other buffer to what was there; a call's output by the call's value lemma; a buffer a call
  does not own passes through it.
-/
import proofs.«178937_j87797721465076_1_alg».proof.Proof.Gen.KernelIdeal.Frame
import proofs.«178937_j87797721465076_1_alg».proof.Proof.NetSpec
import proofs.«178937_j87797721465076_1_alg».proof.Proof.LibTypedRef
import proofs.«178937_j87797721465076_1_alg».proof.Proof.Call2
import proofs.«178937_j87797721465076_1_alg».proof.Proof.St11
import Idealize.ShloMosaic.Lib.StableHlo.Run

-- one theorem at a time: each reads a stretch of the program by one rewriting pass
set_option Elab.async false
set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem w12_v73 (c : Dev nD) : W12 m ρ c (Proc.devRef .tc main_v73) = Call2.fn (Net.convK (Net.convK (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (m ((c : Thread nD τ).loc main_arg6)) Net.zrow := by
  refine (W12_arr m ρ c 3).trans ((Call2.arr_eq (V11 m ρ) c).trans ?_)
  show Call2.fn (W11 m ρ c (Proc.devRef .tc main_v70)) (W11 m ρ c (Proc.devRef .tc main_arg6)) (W11 m ρ c (Proc.devRef .tc main_v72)) = _
  rw [w11_v70, w11_arg6, w11_v72]

theorem w12_v3 (c : Dev nD) : W12 m ρ c (Proc.devRef .tc main_v3) = (Net.src (m ((c : Thread nD τ).loc main_arg1))) :=
  (W12_of_ne m ρ c main_v3 (by decide)).trans (w11_v3 m ρ c)

theorem w12_v6 (c : Dev nD) : W12 m ρ c (Proc.devRef .tc main_v6) = (Net.dst (m ((c : Thread nD τ).loc main_arg1))) :=
  (W12_of_ne m ρ c main_v6 (by decide)).trans (w11_v6 m ρ c)

theorem w12_v30 (c : Dev nD) : W12 m ρ c (Proc.devRef .tc main_v30) = (Net.norm (Net.src (m ((c : Thread nD τ).loc main_arg1))) (Net.dst (m ((c : Thread nD τ).loc main_arg1)))) :=
  (W12_of_ne m ρ c main_v30 (by decide)).trans (w11_v30 m ρ c)

theorem w12_arg7 (c : Dev nD) : W12 m ρ c (Proc.devRef .tc main_arg7) = (m ((c : Thread nD τ).loc main_arg7)) :=
  (W12_of_ne m ρ c main_arg7 (by decide)).trans (w11_arg7 m ρ c)

theorem w12_arg8 (c : Dev nD) : W12 m ρ c (Proc.devRef .tc main_arg8) = (m ((c : Thread nD τ).loc main_arg8)) :=
  (W12_of_ne m ρ c main_arg8 (by decide)).trans (w11_arg8 m ρ c)

theorem w12_arg9 (c : Dev nD) : W12 m ρ c (Proc.devRef .tc main_arg9) = (m ((c : Thread nD τ).loc main_arg9)) :=
  (W12_of_ne m ρ c main_arg9 (by decide)).trans (w11_arg9 m ρ c)

theorem w12_arg10 (c : Dev nD) : W12 m ρ c (Proc.devRef .tc main_arg10) = (m ((c : Thread nD τ).loc main_arg10)) :=
  (W12_of_ne m ρ c main_arg10 (by decide)).trans (w11_arg10 m ρ c)

theorem w12_arg11 (c : Dev nD) : W12 m ρ c (Proc.devRef .tc main_arg11) = (m ((c : Thread nD τ).loc main_arg11)) :=
  (W12_of_ne m ρ c main_arg11 (by decide)).trans (w11_arg11 m ρ c)

theorem w13_v89 (c : Dev nD) : W13 m ρ c (Proc.devRef .tc main_v89) = (Net.aggPre (Call2.fn (Net.convK (Net.convK (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (m ((c : Thread nD τ).loc main_arg6)) Net.zrow) (Net.src (m ((c : Thread nD τ).loc main_arg1))) (Net.dst (m ((c : Thread nD τ).loc main_arg1))) (Net.norm (Net.src (m ((c : Thread nD τ).loc main_arg1))) (Net.dst (m ((c : Thread nD τ).loc main_arg1)))) (m ((c : Thread nD τ).loc main_arg7))) := by
  have h0 := w12_v73 m ρ c
  have h1 := w12_v3 m ρ c
  have h2 := w12_v6 m ρ c
  have h3 := w12_v30 m ρ c
  have h4 := w12_arg7 m ρ c
  show StableHlo.after hostOps3 (W12 m ρ c) (Proc.devRef .tc main_v89) = _
  generalize W12 m ρ c = V at h0 h1 h2 h3 h4 ⊢
  simp only [hostOps3]
  after_results_simp
  simp only [h0, h1, h2, h3, h4]
  all_goals rfl

theorem w15_v90 (c : Dev nD) : W15 m ρ c (Proc.devRef .tc main_v90) = (Net.convK (Net.convK (Net.convK (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (m ((c : Thread nD τ).loc main_arg6)) (m ((c : Thread nD τ).loc main_arg7)) (m ((c : Thread nD τ).loc main_arg1))) := by
  have h0 := w13_v89 m ρ c
  show StableHlo.after hostOps3_2 (StableHlo.after hostOps3_1 (W13 m ρ c)) (Proc.devRef .tc main_v90) = _
  generalize W13 m ρ c = V at h0 ⊢
  simp only [hostOps3_1, hostOps3_2]
  after_results_simp
  simp only [h0, Cert.TypedRef.ofBuf_toBuf]
  refine Cert.TypedRef.toBuf_eq _ _ _ ?_
  rw [Cert.TypedRef.ofBuf_eq _ _ (Net.aggPre (Call2.fn (Net.convK (Net.convK (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (m ((c : Thread nD τ).loc main_arg6)) Net.zrow) (Net.src (m ((c : Thread nD τ).loc main_arg1))) (Net.dst (m ((c : Thread nD τ).loc main_arg1))) (Net.norm (Net.src (m ((c : Thread nD τ).loc main_arg1))) (Net.dst (m ((c : Thread nD τ).loc main_arg1)))) (m ((c : Thread nD τ).loc main_arg7))) HEq.rfl]
  exact HEq.rfl

theorem w15_v91 (c : Dev nD) : W15 m ρ c (Proc.devRef .tc main_v91) = (shapeCast S1x128 (m ((c : Thread nD τ).loc main_arg9)) shapeCasts_S128_S1x128) := by
  have h0 := w12_arg9 m ρ c
  show StableHlo.after hostOps3_2 (StableHlo.after hostOps3_1 (StableHlo.after hostOps3 (W12 m ρ c))) (Proc.devRef .tc main_v91) = _
  generalize W12 m ρ c = V at h0 ⊢
  simp only [hostOps3, hostOps3_1, hostOps3_2]
  after_results_simp
  simp only [h0]
  all_goals rfl

theorem w15_arg8 (c : Dev nD) : W15 m ρ c (Proc.devRef .tc main_arg8) = (m ((c : Thread nD τ).loc main_arg8)) := by
  have h0 := w12_arg8 m ρ c
  show StableHlo.after hostOps3_2 (StableHlo.after hostOps3_1 (StableHlo.after hostOps3 (W12 m ρ c))) (Proc.devRef .tc main_arg8) = _
  generalize W12 m ρ c = V at h0 ⊢
  simp only [hostOps3, hostOps3_1, hostOps3_2]
  after_results_simp
  all_goals exact h0

theorem w15_arg10 (c : Dev nD) : W15 m ρ c (Proc.devRef .tc main_arg10) = (m ((c : Thread nD τ).loc main_arg10)) := by
  have h0 := w12_arg10 m ρ c
  show StableHlo.after hostOps3_2 (StableHlo.after hostOps3_1 (StableHlo.after hostOps3 (W12 m ρ c))) (Proc.devRef .tc main_arg10) = _
  generalize W12 m ρ c = V at h0 ⊢
  simp only [hostOps3, hostOps3_1, hostOps3_2]
  after_results_simp
  all_goals exact h0

theorem w15_arg11 (c : Dev nD) : W15 m ρ c (Proc.devRef .tc main_arg11) = (m ((c : Thread nD τ).loc main_arg11)) := by
  have h0 := w12_arg11 m ρ c
  show StableHlo.after hostOps3_2 (StableHlo.after hostOps3_1 (StableHlo.after hostOps3 (W12 m ρ c))) (Proc.devRef .tc main_arg11) = _
  generalize W12 m ρ c = V at h0 ⊢
  simp only [hostOps3, hostOps3_1, hostOps3_2]
  after_results_simp
  all_goals exact h0

end Cert.KernelIdeal.Stages

end
-- ==== Proof.St18.lean ====
/-
  THE KERNEL PROGRAM'S BUFFERS, SEGMENT BY SEGMENT, at the ideal values — THE DECODER: the fourth call's output (dense layer and rectifier), the last bias as a row, and the fifth call's output (dense layer and sigmoid): the network of the arguments.

  The program's run is a fold of eighteen segments over the launch memory.  Read here is what the few buffers that later
  segments still read hold at the boundaries named above, each as the corresponding stage of the network `Net.netK` of the
  argument arrays.  A stretch of host operations is read by rewriting each operation's result at its own buffer to its
  function's value and at every other buffer to what was there; a call's output by the call's value lemma; a buffer a call
  does not own passes through it.
-/
import proofs.«178937_j87797721465076_1_alg».proof.Proof.Gen.KernelIdeal.Frame
import proofs.«178937_j87797721465076_1_alg».proof.Proof.NetSpec
import proofs.«178937_j87797721465076_1_alg».proof.Proof.Call3
import proofs.«178937_j87797721465076_1_alg».proof.Proof.Call4
import proofs.«178937_j87797721465076_1_alg».proof.Proof.St15
import Idealize.ShloMosaic.Lib.StableHlo.Run

-- one theorem at a time: each reads a stretch of the program by one rewriting pass
set_option Elab.async false
set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem w16_v92 (c : Dev nD) : W16 m ρ c (Proc.devRef .tc main_v92) = (Net.dec1K (Net.convK (Net.convK (Net.convK (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (m ((c : Thread nD τ).loc main_arg6)) (m ((c : Thread nD τ).loc main_arg7)) (m ((c : Thread nD τ).loc main_arg1))) (m ((c : Thread nD τ).loc main_arg8)) (m ((c : Thread nD τ).loc main_arg9))) := by
  refine (W16_arr m ρ c 3).trans ((Call3.arr_eq (V15 m ρ) c).trans ?_)
  show Call3.fn (W15 m ρ c (Proc.devRef .tc main_v90)) (W15 m ρ c (Proc.devRef .tc main_arg8)) (W15 m ρ c (Proc.devRef .tc main_v91)) = _
  rw [w15_v90, w15_arg8, w15_v91]
  all_goals rfl

theorem w16_arg10 (c : Dev nD) : W16 m ρ c (Proc.devRef .tc main_arg10) = (m ((c : Thread nD τ).loc main_arg10)) :=
  (W16_of_ne m ρ c main_arg10 (by decide)).trans (w15_arg10 m ρ c)

theorem w16_arg11 (c : Dev nD) : W16 m ρ c (Proc.devRef .tc main_arg11) = (m ((c : Thread nD τ).loc main_arg11)) :=
  (W16_of_ne m ρ c main_arg11 (by decide)).trans (w15_arg11 m ρ c)

theorem w17_v93 (c : Dev nD) : W17 m ρ c (Proc.devRef .tc main_v93) = (shapeCast S1x64 (m ((c : Thread nD τ).loc main_arg11)) shapeCasts_S64_S1x64) := by
  have h0 := w16_arg11 m ρ c
  show StableHlo.after hostOps4 (W16 m ρ c) (Proc.devRef .tc main_v93) = _
  generalize W16 m ρ c = V at h0 ⊢
  simp only [hostOps4]
  after_results_simp
  simp only [h0]
  all_goals rfl

theorem w17_v92 (c : Dev nD) : W17 m ρ c (Proc.devRef .tc main_v92) = (Net.dec1K (Net.convK (Net.convK (Net.convK (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (m ((c : Thread nD τ).loc main_arg6)) (m ((c : Thread nD τ).loc main_arg7)) (m ((c : Thread nD τ).loc main_arg1))) (m ((c : Thread nD τ).loc main_arg8)) (m ((c : Thread nD τ).loc main_arg9))) := by
  have h0 := w16_v92 m ρ c
  show StableHlo.after hostOps4 (W16 m ρ c) (Proc.devRef .tc main_v92) = _
  generalize W16 m ρ c = V at h0 ⊢
  simp only [hostOps4]
  after_results_simp
  all_goals exact h0

theorem w17_arg10 (c : Dev nD) : W17 m ρ c (Proc.devRef .tc main_arg10) = (m ((c : Thread nD τ).loc main_arg10)) := by
  have h0 := w16_arg10 m ρ c
  show StableHlo.after hostOps4 (W16 m ρ c) (Proc.devRef .tc main_arg10) = _
  generalize W16 m ρ c = V at h0 ⊢
  simp only [hostOps4]
  after_results_simp
  all_goals exact h0

theorem w18_v94 (c : Dev nD) : W18 m ρ c (Proc.devRef .tc main_v94) = (Net.dec2K (Net.dec1K (Net.convK (Net.convK (Net.convK (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (m ((c : Thread nD τ).loc main_arg6)) (m ((c : Thread nD τ).loc main_arg7)) (m ((c : Thread nD τ).loc main_arg1))) (m ((c : Thread nD τ).loc main_arg8)) (m ((c : Thread nD τ).loc main_arg9))) (m ((c : Thread nD τ).loc main_arg10)) (m ((c : Thread nD τ).loc main_arg11))) := by
  refine (W18_arr m ρ c 3).trans ((Call4.arr_eq (V17 m ρ) c).trans ?_)
  show Call4.fn (W17 m ρ c (Proc.devRef .tc main_v92)) (W17 m ρ c (Proc.devRef .tc main_arg10)) (W17 m ρ c (Proc.devRef .tc main_v93)) = _
  rw [w17_v92, w17_arg10, w17_v93]
  all_goals rfl

end Cert.KernelIdeal.Stages

end
-- ==== Proof.RefValue.lean ====
/-
  THE REFERENCE'S RESULT IS THE NETWORK, every matrix stage the host's product.

  The reference program is a straight line of host operations; its run ends with the result buffer at the operations'
  composed term of the argument arrays.  That term is `Net.netH` of the arguments: the same operations in the same order —
  the edge vectors, the edge weights, three times (product, gather, scaling, scatter-add, bias, rectifier), the decoder's
  two layers —, so the two are one term once the network's stages are unfolded.
-/
import proofs.«178937_j87797721465076_1_alg».proof.Proof.RefRunP
import proofs.«178937_j87797721465076_1_alg».proof.Proof.NetSpec

set_option maxRecDepth 16384

noncomputable section

namespace Cert.ReferenceIdeal.RefValue

open Idealize.ShloMosaic Idealize.ShloMosaic.TcCoe Idealize.SL.Sem
open Cert.KernelIdeal (Net.netH)

/-- The reference's composed result term is the network of its argument arrays. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v99 (F := Ideal) m c
      = Cert.KernelIdeal.Net.netH (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) := by
  unfold Cert.ReferenceIdeal.ValueP.res_main_v99
  rfl

end Cert.ReferenceIdeal.RefValue

end
-- ==== Proof.lean ====
/-
  The proof of `Cert.Claim`: the kernel program (five row-tiled dense layers on the vector unit among the host's gathers and
  scatter-adds of three graph convolutions) and the reference (the same network with every matrix stage on the host) compute
  the same function of the arguments on the extended reals.

  • Each pallas call's output array is one whole-array function of its inputs: a dense layer applied row by row, so the
    ten blocks of 5000 rows assemble to the layer of all 50000 rows (Proof/Call0 … Call4 over Proof/DenseSpec).
  • Read segment by segment, the kernel program's result buffer ends at the network `Net.netK` of the arguments
    (Proof/KernelRun, Proof/St3 … St18); the reference's at `Net.netH` (Proof/RefRunP, Proof/RefValue).
  • `Net.netK = Net.netH` (Proof/NetSpec): in the three convolutions the kernel adds an all-zero bias row to the product,
    and `s + 0 = s` on every extended real; the decoder's rectifier and sigmoid are the host's spelt on the vector unit.
    No sum is regrouped and nothing is cancelled, so the precondition (finite inputs) is never opened.
  • The ideal pass rewrote nothing, so `preserves` is `True`; the frames are the generated ones, the reference's its run
    with the result dropped.
-/
import proofs.«178937_j87797721465076_1_alg».proof.Defs
import proofs.«178937_j87797721465076_1_alg».proof.Proof.Gen.Kernel
import proofs.«178937_j87797721465076_1_alg».proof.Proof.Gen.Kernel.Frame
import proofs.«178937_j87797721465076_1_alg».proof.Proof.Gen.KernelIdeal
import proofs.«178937_j87797721465076_1_alg».proof.Proof.Gen.KernelIdeal.Frame
import proofs.«178937_j87797721465076_1_alg».proof.Proof.Gen.ReferenceIdeal
import proofs.«178937_j87797721465076_1_alg».proof.Proof.Gen.Pre_finite_inputs
import proofs.«178937_j87797721465076_1_alg».proof.Proof.KernelRun
import proofs.«178937_j87797721465076_1_alg».proof.Proof.St18
import proofs.«178937_j87797721465076_1_alg».proof.Proof.RefRunP
import proofs.«178937_j87797721465076_1_alg».proof.Proof.RefValue
import proofs.«178937_j87797721465076_1_alg».proof.Proof.NetSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result at the network of the arguments: the kernel program's at `Net.netK`, the reference's
    at `Net.netH` of arguments that agree, and the two are one function. -/
theorem algebraic : Cert.algebraic_KernelIdeal_ReferenceIdeal := by
  intro m ρ m' ρ' _ hagree
  refine ⟨fun c => Cert.KernelIdeal.Net.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Stages.w18_v94 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact (Cert.KernelIdeal.Net.netK_eq_netH _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
